-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S16 .f32) (main_arg6 : FVec F S16x32 .f32) (main_arg7 : FVec F S16x32 .f32) (main_arg8 : FVec F S32 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg6
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16x32 .f32 := Host.absf main_arg7
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x16 .f32) (main_arg4 : FVec F S128x16 .f32) (main_arg5 : FVec F S16 .f32) (main_arg6 : FVec F S16x32 .f32) (main_arg7 : FVec F S16x32 .f32) (main_arg8 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x16 : Shape := ⟨2, ![1, 16]⟩
abbrev S100000x16 : Shape := ⟨2, ![100000, 16]⟩
abbrev S10000x128 : Shape := ⟨2, ![10000, 128]⟩
abbrev S10000x16 : Shape := ⟨2, ![10000, 16]⟩
abbrev S1600000x16 : Shape := ⟨2, ![1600000, 16]⟩
abbrev S1x32 : Shape := ⟨2, ![1, 32]⟩
abbrev S100000x32 : Shape := ⟨2, ![100000, 32]⟩
abbrev S10000x32 : Shape := ⟨2, ![10000, 32]⟩
abbrev S10000 : Shape := ⟨1, ![10000]⟩
abbrev S10000x1 : Shape := ⟨2, ![10000, 1]⟩

abbrev nBuf : Space → Nat
  | .hbm => 83
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x16, .f32⟩
  | .hbm, ⟨4, _⟩ => ⟨S128x16, .f32⟩
  | .hbm, ⟨5, _⟩ => ⟨S16, .f32⟩
  | .hbm, ⟨6, _⟩ => ⟨S16x32, .f32⟩
  | .hbm, ⟨7, _⟩ => ⟨S16x32, .f32⟩
  | .hbm, ⟨8, _⟩ => ⟨S32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S1x16, .f32⟩
  | .hbm, ⟨63, _⟩ => ⟨S100000x16, .f32⟩
  | .hbm, ⟨64, _⟩ => ⟨S1600000x1, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x16, .f32⟩
  | .hbm, ⟨74, _⟩ => ⟨S1600000x16, .f32⟩
  | .hbm, ⟨75, _⟩ => ⟨S1600000x16, .f32⟩
  | .hbm, ⟨76, _⟩ => ⟨S_, .f32⟩
  | .hbm, ⟨77, _⟩ => ⟨S100000x16, .f32⟩
  | .hbm, ⟨78, _⟩ => ⟨S1600000x1, .i32⟩
  | .hbm, ⟨79, _⟩ => ⟨S100000x16, .f32⟩
  | .hbm, ⟨80, _⟩ => ⟨S100000x16, .f32⟩
  | .hbm, ⟨81, _⟩ => ⟨S1x32, .f32⟩
  | .hbm, ⟨82, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x16, .f32⟩
  | .local _ .vmem, ⟨5, _⟩ => ⟨S128x16, .f32⟩
  | .local _ .vmem, ⟨6, _⟩ => ⟨S1x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S16x32, .f32⟩
  | .local _ .vmem, ⟨14, _⟩ => ⟨S16x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S32_S1x32 : S32.ShapeCasts S1x32
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x16_S10000x16_1_0_0_1_n_n_wf : DotDims.WF S10000x128 S128x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x32_S10000x32_1_0_0_1_n_n_wf : DotDims.WF S10000x16 S16x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x16 : Shape := ⟨2, ![100000, 16]⟩
abbrev S1x16 : Shape := ⟨2, ![1, 16]⟩
abbrev S1600000x16 : Shape := ⟨2, ![1600000, 16]⟩
abbrev S100000x32 : Shape := ⟨2, ![100000, 32]⟩
abbrev S1x32 : Shape := ⟨2, ![1, 32]⟩
abbrev S100000x1 : Shape := ⟨2, ![100000, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x16, .f32⟩
  | 4 => ⟨S128x16, .f32⟩
  | 5 => ⟨S16, .f32⟩
  | 6 => ⟨S16x32, .f32⟩
  | 7 => ⟨S16x32, .f32⟩
  | 8 => ⟨S32, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x128, .f32⟩
  | 62 => ⟨S100000x16, .f32⟩
  | 63 => ⟨S100000x16, .f32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S1600000x1, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x16, .f32⟩
  | 113 => ⟨S1600000x16, .f32⟩
  | 114 => ⟨S1600000x16, .f32⟩
  | 115 => ⟨S_, .f32⟩
  | 116 => ⟨S100000x16, .f32⟩
  | 117 => ⟨S1600000x1, .i32⟩
  | 118 => ⟨S100000x16, .f32⟩
  | 119 => ⟨S100000x16, .f32⟩
  | 120 => ⟨S100000x32, .f32⟩
  | 121 => ⟨S100000x32, .f32⟩
  | 122 => ⟨S100000x32, .f32⟩
  | 123 => ⟨S1x32, .f32⟩
  | 124 => ⟨S100000x32, .f32⟩
  | 125 => ⟨S100000x32, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x32, .f32⟩
  | 5 => ⟨S100000x32, .f32⟩
  | 6 => ⟨S100000x32, .f32⟩
  | 7 => ⟨S_, .f32⟩
  | 8 => ⟨S100000, .f32⟩
  | 9 => ⟨S100000x1, .f32⟩
  | 10 => ⟨S100000x1, .f32⟩
  | 11 => ⟨S100000x32, .f32⟩
  | 12 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_call2_v0 : Ref sig .tc := ⟨.hbm, 80, rfl⟩
abbrev main_call2_v1 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_call3_cst : Ref sig .tc := ⟨.hbm, 126, rfl⟩
abbrev main_call3_v0 : Ref sig .tc := ⟨.hbm, 127, rfl⟩
abbrev main_call3_cst_0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_v6 : Ref sig .tc := ⟨.hbm, 134, rfl⟩
abbrev main_call3_cst_1 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_v91 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1600000x1_S1600000x16_0_1 : S1600000x1.BroadcastsInDim S1600000x16 (![0, 1] : Fin 2 → Fin S1600000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.KernelRun.lean ====
/-
  The idealized kernel program's run with its result named.

  Every weakly fair execution of the program ends with the result buffer at what the second region's
  write-backs leave in it — the boundary contents after the last segment, read at the result's
  reference — and the nine argument arrays as launched.  The segments, their boundary contents and the
  launch are the frame's; the post reads one more buffer of the same final state.
-/
import proofs.«140530_j7876970020889_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_result : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.KernelRun

end
-- ==== Proof.Stages.lean ====
/-
  The graph stages that the two programs share, as functions of the argument arrays.

  Both programs send the edge list and the edge weights through the same host operations: the weighted
  degree of every node, its inverse square root where the degree is positive, the symmetric normalisation
  of each edge weight, and, for a node table X, the sum over a node's incoming edges of the normalised
  weight times the source row of X, minus X itself.  They are named here once; neither side ever opens them.
  The dense stages between them — two matrix products, a bias, then relu or a row-wise log-softmax — are
  named in the operations' own spelling, to be read index by index elsewhere.
-/
import proofs.«140530_j7876970020889_1_alg».proof.Proof.Gen.ReferenceIdeal
import Idealize.ShloMosaic.PureOps.Ideal

noncomputable section

namespace Cert.ReferenceIdeal.Stages

open Cert.ReferenceIdeal Cert.ReferenceIdeal.Gen Idealize.ShloMosaic Idealize.ShloMosaic.TcCoe

variable {F : FTy → Type} [FloatOps F]

/-- The edges' target nodes (row 0 of the edge list). -/
def rowIdx (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The edges' source nodes (row 1 of the edge list). -/
def colIdx (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A node index counted from the end when negative: `ix + 100000` where `ix < 0`. -/
def wrapIdx (ix : (⟨S1600000, .i32⟩ : BufTy).Contents (Elt F)) : (⟨S1600000, .i32⟩ : BufTy).Contents (Elt F) :=
  select (cmpi .slt ix (broadcastInDim S1600000 ![] bcast_S_S1600000 (constantI S_ 32 0#32)))
    (addi ix (broadcastInDim S1600000 ![] bcast_S_S1600000 (constantI S_ 32 100000#32))) ix

/-- The weighted degree of every node: the sum of the weights of the edges that point at it. -/
def degree (ei : (⟨S2x1600000, .i32⟩ : BufTy).Contents (Elt F)) (ew : (⟨S1600000, .f32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (rowIdx ei)) ew

/-- `1 / sqrt degree` where the degree is positive, zero elsewhere. -/
def invSqrtDegree (ei : (⟨S2x1600000, .i32⟩ : BufTy).Contents (Elt F)) (ew : (⟨S1600000, .f32⟩ : BufTy).Contents (Elt F)) : (⟨S100000, .f32⟩ : BufTy).Contents (Elt F) :=
  select (cmpf .ogt (degree ei ew) (broadcastInDim S100000 ![] bcast_S_S100000 (constant S_ .f32 0x00000000#32)))
    (Host.rsqrt (degree ei ew))
    (broadcastInDim S100000 ![] bcast_S_S100000 (id (constant S_ .f32 0x00000000#32)))

/-- The normalised weight of every edge: `d(target)^(-1/2) · w · d(source)^(-1/2)`. -/
def edgeNorm (ei : (⟨S2x1600000, .i32⟩ : BufTy).Contents (Elt F)) (ew : (⟨S1600000, .f32⟩ : BufTy).Contents (Elt F)) : (⟨S1600000, .f32⟩ : BufTy).Contents (Elt F) :=
  mulf (mulf (Host.gather gather_S100000_S1600000x1_S1600000_n_0_n_n_0_1_1 (invSqrtDegree ei ew)
        (broadcastInDim S1600000x1 ![0] bcast_S1600000_S1600000x1_0 (wrapIdx (rowIdx ei)))) ew)
    (Host.gather gather_S100000_S1600000x1_S1600000_n_0_n_n_0_1_1 (invSqrtDegree ei ew)
      (broadcastInDim S1600000x1 ![0] bcast_S1600000_S1600000x1_0 (wrapIdx (colIdx ei))))

/-- The first layer's neighbourhood term: the normalised aggregate of the feature rows, minus the features. -/
def aggr128 (norm : (⟨S1600000, .f32⟩ : BufTy).Contents (Elt F)) (ei : (⟨S2x1600000, .i32⟩ : BufTy).Contents (Elt F)) (x : (⟨S100000x128, .f32⟩ : BufTy).Contents (Elt F)) : (⟨S100000x128, .f32⟩ : BufTy).Contents (Elt F) :=
  subf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (rowIdx ei))
      (mulf (broadcastInDim S1600000x128 ![0, 1] bcast_S1600000x1_S1600000x128_0_1
          (broadcastInDim S1600000x1 ![0] bcast_S1600000_S1600000x1_0 norm))
        (Host.gather gather_S100000x128_S1600000x1_S1600000x128_1_0_n_n_0_1_1128 x
          (broadcastInDim S1600000x1 ![0] bcast_S1600000_S1600000x1_0 (wrapIdx (colIdx ei))))))
    x

/-- The second layer's neighbourhood term: the same aggregate of the hidden rows, minus the hidden rows. -/
def aggr16 (norm : (⟨S1600000, .f32⟩ : BufTy).Contents (Elt F)) (ei : (⟨S2x1600000, .i32⟩ : BufTy).Contents (Elt F)) (h : (⟨S100000x16, .f32⟩ : BufTy).Contents (Elt F)) : (⟨S100000x16, .f32⟩ : BufTy).Contents (Elt F) :=
  subf (Host.scatterAdd scatter_S100000x16_S1600000x1_S1600000x16_1_0_0_1
      (broadcastInDim S100000x16 ![] bcast_S_S100000x16 (constant S_ .f32 0x00000000#32))
      (broadcastInDim S1600000x1 ![0] bcast_S1600000_S1600000x1_0 (rowIdx ei))
      (mulf (broadcastInDim S1600000x16 ![0, 1] bcast_S1600000x1_S1600000x16_0_1
          (broadcastInDim S1600000x1 ![0] bcast_S1600000_S1600000x1_0 norm))
        (Host.gather gather_S100000x16_S1600000x1_S1600000x16_1_0_n_n_0_1_116 h
          (broadcastInDim S1600000x1 ![0] bcast_S1600000_S1600000x1_0 (wrapIdx (colIdx ei))))))
    h

/-- A bias vector as one row. -/
def biasRow16 (b : (⟨S16, .f32⟩ : BufTy).Contents (Elt F)) : (⟨S1x16, .f32⟩ : BufTy).Contents (Elt F) := broadcastInDim S1x16 ![1] bcast_S16_S1x16_1 b
def biasRow32 (b : (⟨S32, .f32⟩ : BufTy).Contents (Elt F)) : (⟨S1x32, .f32⟩ : BufTy).Contents (Elt F) := broadcastInDim S1x32 ![1] bcast_S32_S1x32_1 b

/-- The first dense stage in the operations' spelling: `relu (x · w0 + t · w1 + b)`. -/
def denseRelu (x t : (⟨S100000x128, .f32⟩ : BufTy).Contents (Elt F)) (w0 w1 : (⟨S128x16, .f32⟩ : BufTy).Contents (Elt F)) (b : (⟨S1x16, .f32⟩ : BufTy).Contents (Elt F)) : (⟨S100000x16, .f32⟩ : BufTy).Contents (Elt F) :=
  maximumf (addf (addf (Host.dotGeneral dot_S100000x128_S128x16_S100000x16_1_0_0_1_n_n none x w0)
        (Host.dotGeneral dot_S100000x128_S128x16_S100000x16_1_0_0_1_n_n none t w1))
      (broadcastInDim S100000x16 ![0, 1] bcast_S1x16_S100000x16_0_1 b))
    (broadcastInDim S100000x16 ![] bcast_S_S100000x16 (constant S_ .f32 0x00000000#32))

/-- The row-wise log-softmax in the operations' spelling: shift by the row maximum, subtract the log of the
    row sum of exponentials. -/
def logSoftmaxRows (a : (⟨S100000x32, .f32⟩ : BufTy).Contents (Elt F)) : (⟨S100000x32, .f32⟩ : BufTy).Contents (Elt F) :=
  subf
    (subf a (broadcastInDim S100000x32 ![0, 1] bcast_S100000x1_S100000x32_0_1
      (broadcastInDim S100000x1 ![0] bcast_S100000_S100000x1_0
        (maximumf (broadcastInDim S100000 ![] bcast_S_S100000 (constant S_ .f32 0xFF800000#32))
          (Host.reduce FloatOps.maximumf a (constant S_ .f32 0xFF800000#32) reducesTo_S100000x32_S100000_d1 h_S_)))))
    (broadcastInDim S100000x32 ![0, 1] bcast_S100000x1_S100000x32_0_1
      (Host.log (broadcastInDim S100000x1 ![0] bcast_S100000_S100000x1_0
        (Host.reduceAdd
          (Host.exp (subf a (broadcastInDim S100000x32 ![0, 1] bcast_S100000x1_S100000x32_0_1
            (broadcastInDim S100000x1 ![0] bcast_S100000_S100000x1_0
              (maximumf (broadcastInDim S100000 ![] bcast_S_S100000 (constant S_ .f32 0xFF800000#32))
                (Host.reduce FloatOps.maximumf a (constant S_ .f32 0xFF800000#32) reducesTo_S100000x32_S100000_d1 h_S_))))))
          (constant S_ .f32 0x00000000#32) reducesTo_S100000x32_S100000_d1 h_S_))))

/-- The second dense stage in the operations' spelling: `log_softmax (h · w0 + t · w1 + b)` along each row. -/
def denseLogSoftmax (h t : (⟨S100000x16, .f32⟩ : BufTy).Contents (Elt F)) (w0 w1 : (⟨S16x32, .f32⟩ : BufTy).Contents (Elt F)) (b : (⟨S1x32, .f32⟩ : BufTy).Contents (Elt F)) : (⟨S100000x32, .f32⟩ : BufTy).Contents (Elt F) :=
  logSoftmaxRows (addf (addf (Host.dotGeneral dot_S100000x16_S16x32_S100000x32_1_0_0_1_n_n none h w0)
      (Host.dotGeneral dot_S100000x16_S16x32_S100000x32_1_0_0_1_n_n none t w1))
    (broadcastInDim S100000x32 ![0, 1] bcast_S1x32_S100000x32_0_1 b))

end Cert.ReferenceIdeal.Stages

end
-- ==== Proof.Net.lean ====
/-
  The whole network in the stages' spelling: the hidden layer from the features and their normalised
  aggregate, then the output layer from the hidden rows and theirs.  Both programs end at this function
  of the nine argument arrays.
-/
import proofs.«140530_j7876970020889_1_alg».proof.Proof.Stages

noncomputable section

namespace Cert.ReferenceIdeal.Stages

open Cert.ReferenceIdeal Cert.ReferenceIdeal.Gen Idealize.ShloMosaic Idealize.ShloMosaic.TcCoe

variable {F : FTy → Type} [FloatOps F]

/-- The hidden layer of the net. -/
def netHidden (x : (⟨S100000x128, .f32⟩ : BufTy).Contents (Elt F)) (ei : (⟨S2x1600000, .i32⟩ : BufTy).Contents (Elt F)) (ew : (⟨S1600000, .f32⟩ : BufTy).Contents (Elt F))
    (w10 w11 : (⟨S128x16, .f32⟩ : BufTy).Contents (Elt F)) (b1 : (⟨S1x16, .f32⟩ : BufTy).Contents (Elt F)) : (⟨S100000x16, .f32⟩ : BufTy).Contents (Elt F) :=
  denseRelu x (aggr128 (edgeNorm ei ew) ei x) w10 w11 b1

/-- The net's result: per node, the log-probabilities of the 32 classes. -/
def net (x : (⟨S100000x128, .f32⟩ : BufTy).Contents (Elt F)) (ei : (⟨S2x1600000, .i32⟩ : BufTy).Contents (Elt F)) (ew : (⟨S1600000, .f32⟩ : BufTy).Contents (Elt F))
    (w10 w11 : (⟨S128x16, .f32⟩ : BufTy).Contents (Elt F)) (b1 : (⟨S1x16, .f32⟩ : BufTy).Contents (Elt F)) (w20 w21 : (⟨S16x32, .f32⟩ : BufTy).Contents (Elt F)) (b2 : (⟨S1x32, .f32⟩ : BufTy).Contents (Elt F)) :
    (⟨S100000x32, .f32⟩ : BufTy).Contents (Elt F) :=
  denseLogSoftmax (netHidden x ei ew w10 w11 b1) (aggr16 (edgeNorm ei ew) ei (netHidden x ei ew w10 w11 b1)) w20 w21 b2

end Cert.ReferenceIdeal.Stages

end
-- ==== Proof.Spec.lean ====
/-
  The mathematics both programs compute, row by row, on the extended reals.

  A node's hidden vector is  relu (x_r · W0 + t_r · W1 + b)  (x_r the node's feature row, t_r the row of the
  normalised neighbourhood aggregate minus the features); its output is the log-softmax of the same affine
  combine of the hidden row and its aggregate.  Every entry of a result row depends on ONE row of each
  left operand: a node's row of the result is a function of that node's rows alone.
-/
import Idealize.ShloMosaic.PureOps.Ideal
import Idealize.ShloMosaic.PureOps.Ideal.Laws
import Idealize.ShloMosaic.Lib.ValueIdx

noncomputable section

namespace Cert.Cheb

open Idealize.ShloMosaic Idealize.ShloMosaic.ValueIdx

/-- The value a running maximum starts from: the f32 word of minus infinity. -/
abbrev negInf : EReal := Ideal.ofBits .f32 0xFF800000#32

/-- Entry `q` of a hidden row: the two 128-term products against the weight columns, the bias, then relu. -/
def rowHidden (xr tr : Fin 128 → EReal) (w0 w1 : FVec Ideal ⟨2, ![128, 16]⟩ .f32) (b : FVec Ideal ⟨2, ![1, 16]⟩ .f32)
    (q : Fin 16) : EReal :=
  max ((∑ κ : Fin 128, xr κ * w0 (ix2 κ q)) + (∑ κ : Fin 128, tr κ * w1 (ix2 κ q)) + b (ix2 0 q)) 0

/-- Entry `q` of a logit row: the two 16-term products against the weight columns and the bias. -/
def rowLogit (hr tr : Fin 16 → EReal) (w0 w1 : FVec Ideal ⟨2, ![16, 32]⟩ .f32) (b : FVec Ideal ⟨2, ![1, 32]⟩ .f32)
    (q : Fin 32) : EReal :=
  (∑ κ : Fin 16, hr κ * w0 (ix2 κ q)) + (∑ κ : Fin 16, tr κ * w1 (ix2 κ q)) + b (ix2 0 q)

/-- A logit row's maximum, folded from minus infinity. -/
def rowMax (a : Fin 32 → EReal) : EReal := (Finset.univ : Finset (Fin 32)).fold max negInf a

/-- Entry `q` of the row's log-softmax: the shifted logit minus the log of the sum of the shifted exponentials. -/
def rowLogSoftmax (a : Fin 32 → EReal) (q : Fin 32) : EReal :=
  (a q - rowMax a) - Ideal.log (∑ j : Fin 32, Ideal.exp (a j - rowMax a))

/-- The hidden layer at node `r`, class `q`. -/
def hiddenAt (x t : FVec Ideal ⟨2, ![100000, 128]⟩ .f32) (w0 w1 : FVec Ideal ⟨2, ![128, 16]⟩ .f32)
    (b : FVec Ideal ⟨2, ![1, 16]⟩ .f32) (r : Fin 100000) (q : Fin 16) : EReal :=
  rowHidden (fun κ => x (ix2 r κ)) (fun κ => t (ix2 r κ)) w0 w1 b q

/-- The hidden layer as one array. -/
def hidden (x t : FVec Ideal ⟨2, ![100000, 128]⟩ .f32) (w0 w1 : FVec Ideal ⟨2, ![128, 16]⟩ .f32)
    (b : FVec Ideal ⟨2, ![1, 16]⟩ .f32) : FVec Ideal ⟨2, ![100000, 16]⟩ .f32 :=
  fun i => hiddenAt x t w0 w1 b ⟨(i 0).val, (i 0).isLt⟩ ⟨(i 1).val, (i 1).isLt⟩

/-- The output layer at node `r`, class `q`. -/
def logProbsAt (h t : FVec Ideal ⟨2, ![100000, 16]⟩ .f32) (w0 w1 : FVec Ideal ⟨2, ![16, 32]⟩ .f32)
    (b : FVec Ideal ⟨2, ![1, 32]⟩ .f32) (r : Fin 100000) (q : Fin 32) : EReal :=
  rowLogSoftmax (fun j => rowLogit (fun κ => h (ix2 r κ)) (fun κ => t (ix2 r κ)) w0 w1 b j) q

/-- The output layer as one array. -/
def logProbs (h t : FVec Ideal ⟨2, ![100000, 16]⟩ .f32) (w0 w1 : FVec Ideal ⟨2, ![16, 32]⟩ .f32)
    (b : FVec Ideal ⟨2, ![1, 32]⟩ .f32) : FVec Ideal ⟨2, ![100000, 32]⟩ .f32 :=
  fun i => logProbsAt h t w0 w1 b ⟨(i 0).val, (i 0).isLt⟩ ⟨(i 1).val, (i 1).isLt⟩

theorem hidden_ix2 (x t : FVec Ideal ⟨2, ![100000, 128]⟩ .f32) (w0 w1 : FVec Ideal ⟨2, ![128, 16]⟩ .f32)
    (b : FVec Ideal ⟨2, ![1, 16]⟩ .f32) (r : Fin 100000) (q : Fin 16) :
    hidden x t w0 w1 b (ix2 r q) = hiddenAt x t w0 w1 b r q := rfl

theorem logProbs_ix2 (h t : FVec Ideal ⟨2, ![100000, 16]⟩ .f32) (w0 w1 : FVec Ideal ⟨2, ![16, 32]⟩ .f32)
    (b : FVec Ideal ⟨2, ![1, 32]⟩ .f32) (r : Fin 100000) (q : Fin 32) :
    logProbs h t w0 w1 b (ix2 r q) = logProbsAt h t w0 w1 b r q := rfl

end Cert.Cheb

end
-- ==== Proof.KernelChain.lean ====
/-
  What the idealized kernel program's result buffer holds, as a function of the argument arrays.

  The program is four stretches of host operations around two regions.  Reading the boundary contents
  backwards from the result: the second region leaves the log-softmax layer of its five input arrays; two of
  those are the hidden layer the first region left and its normalised aggregate, which the host
  operations between the regions compute from it, from the edge list's two rows and from the edge norm
  that the stretches before the first region computed; the first region's inputs are the features, their
  aggregate, and the first layer's parameters.  Each host stretch is the composition of the graph stages
  (degree, normalisation, aggregate); each region enters through the statement of what it leaves in its
  output array, a hypothesis of the two last theorems.
-/
import proofs.«140530_j7876970020889_1_alg».proof.Proof.Gen.KernelIdeal.Frame
import proofs.«140530_j7876970020889_1_alg».proof.Proof.Net
import proofs.«140530_j7876970020889_1_alg».proof.Proof.Spec
import Idealize.ShloMosaic.Lib.StableHlo.Run

set_option maxRecDepth 16384

noncomputable section

namespace Cert.KernelIdeal.KernelChain

open Cert.KernelIdeal Cert.KernelIdeal.Gen
open Idealize.ShloMosaic Idealize.ShloMosaic.TcCoe Idealize.SL.Sem Idealize.ShloMosaic.StableHlo
open Cert.ReferenceIdeal (Stages.rowIdx Stages.colIdx Stages.edgeNorm Stages.aggr128 Stages.aggr16)

variable {F : FTy → Type} [FloatOps F]
variable (m : (ℓ : Loc nD τ sig) → Buf (Elt F) ℓ) (ρ : Dev nD → PrngReg)

/-! ## At the first region's entry -/

theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0_2, hostOps0_1, hostOps0]
  after_results_simp <;> rfl

theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  simp only [hostOps0_2, hostOps0_1, hostOps0]
  after_results_simp <;> rfl

theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  simp only [hostOps0_2, hostOps0_1, hostOps0]
  after_results_simp <;> rfl

theorem W3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  simp only [hostOps0_2, hostOps0_1, hostOps0]
  after_results_simp <;> rfl

theorem W3_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  simp only [hostOps0_2, hostOps0_1, hostOps0]
  after_results_simp <;> rfl

theorem W3_arg8 (c : Dev nD) : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  simp only [hostOps0_2, hostOps0_1, hostOps0]
  after_results_simp <;> rfl

/-- The edges' target nodes. -/
theorem W3_v1 (c : Dev nD) : W3 m ρ c (Proc.devRef .tc main_v1) = Cert.ReferenceIdeal.Stages.rowIdx (F := F) (m ((c : Thread nD τ).loc main_arg1)) := by
  show StableHlo.after hostOps0_2 (StableHlo.after hostOps0_1 (StableHlo.after hostOps0 (W0 m ρ c))) (Proc.devRef .tc main_v1) = _
  simp only [hostOps0_2, hostOps0_1, hostOps0]
  after_results_simp <;> rfl

/-- The edges' source nodes. -/
theorem W3_v3 (c : Dev nD) : W3 m ρ c (Proc.devRef .tc main_v3) = Cert.ReferenceIdeal.Stages.colIdx (F := F) (m ((c : Thread nD τ).loc main_arg1)) := by
  show StableHlo.after hostOps0_2 (StableHlo.after hostOps0_1 (StableHlo.after hostOps0 (W0 m ρ c))) (Proc.devRef .tc main_v3) = _
  simp only [hostOps0_2, hostOps0_1, hostOps0]
  after_results_simp <;> rfl

/-- The normalised edge weights. -/
theorem W3_v26 (c : Dev nD) : W3 m ρ c (Proc.devRef .tc main_v26) = Cert.ReferenceIdeal.Stages.edgeNorm (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v26) = _
  simp only [hostOps0_2, hostOps0_1, hostOps0]
  after_results_simp <;> rfl

/-- The features' normalised aggregate minus the features. -/
theorem W3_v40 (c : Dev nD) : W3 m ρ c (Proc.devRef .tc main_v40) = Cert.ReferenceIdeal.Stages.aggr128 (F := F) (Cert.ReferenceIdeal.Stages.edgeNorm (m ((c : Thread nD τ).loc main_arg1)) (m ((c : Thread nD τ).loc main_arg2))) (m ((c : Thread nD τ).loc main_arg1)) (m ((c : Thread nD τ).loc main_arg0)) := by
  show StableHlo.after hostOps0_2 (StableHlo.after hostOps0_1 (StableHlo.after hostOps0 (W0 m ρ c))) (Proc.devRef .tc main_v40) = _
  simp only [hostOps0_2, hostOps0_1, hostOps0]
  after_results_simp <;> rfl

/-- The first bias as one row. -/
theorem W3_v41 (c : Dev nD) : W3 m ρ c (Proc.devRef .tc main_v41) = shapeCast S1x16 (m ((c : Thread nD τ).loc main_arg5)) shapeCasts_S16_S1x16 := by
  show StableHlo.after hostOps0_2 (StableHlo.after hostOps0_1 (StableHlo.after hostOps0 (W0 m ρ c))) (Proc.devRef .tc main_v41) = _
  simp only [hostOps0_2, hostOps0_1, hostOps0]
  after_results_simp <;> rfl

/-! ## Across the first region: only its output array changes -/

theorem W4_v1 (c : Dev nD) : W4 m ρ c (Proc.devRef .tc main_v1) = Cert.ReferenceIdeal.Stages.rowIdx (F := F) (m ((c : Thread nD τ).loc main_arg1)) :=
  (W4_of_ne m ρ c main_v1 (by decide)).trans (W3_v1 m ρ c)
theorem W4_v3 (c : Dev nD) : W4 m ρ c (Proc.devRef .tc main_v3) = Cert.ReferenceIdeal.Stages.colIdx (F := F) (m ((c : Thread nD τ).loc main_arg1)) :=
  (W4_of_ne m ρ c main_v3 (by decide)).trans (W3_v3 m ρ c)
theorem W4_v26 (c : Dev nD) : W4 m ρ c (Proc.devRef .tc main_v26) = Cert.ReferenceIdeal.Stages.edgeNorm (F := F) (m ((c : Thread nD τ).loc main_arg1)) (m ((c : Thread nD τ).loc main_arg2)) :=
  (W4_of_ne m ρ c main_v26 (by decide)).trans (W3_v26 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)
theorem W4_arg8 (c : Dev nD) : W4 m ρ c (Proc.devRef .tc main_arg8) = (m ((c : Thread nD τ).loc main_arg8)) :=
  (W4_of_ne m ρ c main_arg8 (by decide)).trans (W3_arg8 m ρ c)

/-! ## At the second region's entry -/

/-- The hidden layer passes the host operations between the regions untouched. -/
theorem W5_v42 (c : Dev nD) : W5 m ρ c (Proc.devRef .tc main_v42) = W4 m ρ c (Proc.devRef .tc main_v42) := by
  show StableHlo.after hostOps1 (W4 m ρ c) (Proc.devRef .tc main_v42) = _
  simp only [hostOps1]
  after_results_simp <;> rfl

/-- The hidden layer's normalised aggregate minus the hidden layer. -/
theorem W5_v56 (c : Dev nD) : W5 m ρ c (Proc.devRef .tc main_v56)
    = Cert.ReferenceIdeal.Stages.aggr16 (F := F) (Cert.ReferenceIdeal.Stages.edgeNorm (m ((c : Thread nD τ).loc main_arg1)) (m ((c : Thread nD τ).loc main_arg2))) (m ((c : Thread nD τ).loc main_arg1)) (W4 m ρ c (Proc.devRef .tc main_v42)) := by
  show StableHlo.after hostOps1 (W4 m ρ c) (Proc.devRef .tc main_v56) = _
  simp only [hostOps1]
  after_results_simp
  rw [W4_v1, W4_v3, W4_v26]
  rfl

/-- The second bias as one row. -/
theorem W5_v57 (c : Dev nD) : W5 m ρ c (Proc.devRef .tc main_v57) = shapeCast S1x32 (m ((c : Thread nD τ).loc main_arg8)) shapeCasts_S32_S1x32 := by
  show StableHlo.after hostOps1 (W4 m ρ c) (Proc.devRef .tc main_v57) = _
  simp only [hostOps1]
  after_results_simp
  rw [W4_arg8]
  rfl

theorem W5_arg6 (c : Dev nD) : W5 m ρ c (Proc.devRef .tc main_arg6) = (m ((c : Thread nD τ).loc main_arg6)) := by
  show StableHlo.after hostOps1 (W4 m ρ c) (Proc.devRef .tc main_arg6) = _
  simp only [hostOps1]
  after_results_simp
  exact W4_arg6 m ρ c
theorem W5_arg7 (c : Dev nD) : W5 m ρ c (Proc.devRef .tc main_arg7) = (m ((c : Thread nD τ).loc main_arg7)) := by
  show StableHlo.after hostOps1 (W4 m ρ c) (Proc.devRef .tc main_arg7) = _
  simp only [hostOps1]
  after_results_simp
  exact W4_arg7 m ρ c

end Cert.KernelIdeal.KernelChain

/-! ## The result, on the extended reals -/

namespace Cert.KernelIdeal.KernelChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The hidden layer as the kernel program computes it: the first region's function of the features, their
    aggregate and the first layer's parameters. -/
def hiddenK (c : Dev nD) : FVec Ideal ⟨2, ![100000, 16]⟩ .f32 :=
  Cert.Cheb.hidden (m ((c : Thread nD τ).loc main_arg0)) (Cert.ReferenceIdeal.Stages.aggr128 (F := Ideal) (Cert.ReferenceIdeal.Stages.edgeNorm (m ((c : Thread nD τ).loc main_arg1)) (m ((c : Thread nD τ).loc main_arg2))) (m ((c : Thread nD τ).loc main_arg1)) (m ((c : Thread nD τ).loc main_arg0)))
    (m ((c : Thread nD τ).loc main_arg3)) (m ((c : Thread nD τ).loc main_arg4)) (shapeCast S1x16 (m ((c : Thread nD τ).loc main_arg5)) shapeCasts_S16_S1x16)

/-- The output layer as the kernel program computes it. -/
def resultK (c : Dev nD) : FVec Ideal ⟨2, ![100000, 32]⟩ .f32 :=
  Cert.Cheb.logProbs (hiddenK m c) (Cert.ReferenceIdeal.Stages.aggr16 (F := Ideal) (Cert.ReferenceIdeal.Stages.edgeNorm (m ((c : Thread nD τ).loc main_arg1)) (m ((c : Thread nD τ).loc main_arg2))) (m ((c : Thread nD τ).loc main_arg1)) (hiddenK m c))
    (m ((c : Thread nD τ).loc main_arg6)) (m ((c : Thread nD τ).loc main_arg7)) (shapeCast S1x32 (m ((c : Thread nD τ).loc main_arg8)) shapeCasts_S32_S1x32)

variable
  (hfin0 : ∀ (V : (c : Dev nD) → (b : Ref sig .tc) → Buf (Elt Ideal) ((c : Thread nD τ).loc b)) (c : Dev nD),
    (dat0 (F := Ideal) V c).arrAt 5 cfg0.N
      = Cert.Cheb.hidden (V c main_arg0) (V c main_v40) (V c main_arg3) (V c main_arg4) (V c main_v41))
  (hfin1 : ∀ (V : (c : Dev nD) → (b : Ref sig .tc) → Buf (Elt Ideal) ((c : Thread nD τ).loc b)) (c : Dev nD),
    (dat1 (F := Ideal) V c).arrAt 5 cfg1.N
      = Cert.Cheb.logProbs (V c main_v42) (V c main_v56) (V c main_arg6) (V c main_arg7) (V c main_v57))

include hfin0 in
/-- After the first region its output array holds the hidden layer. -/
theorem W4_v42 (c : Dev nD) : W4 m ρ c (Proc.devRef .tc main_v42) = hiddenK m c := by
  refine (W4_arr m ρ c 5).trans ((hfin0 (V3 m ρ) c).trans ?_)
  show Cert.Cheb.hidden (W3 m ρ c (Proc.devRef .tc main_arg0)) (W3 m ρ c (Proc.devRef .tc main_v40))
    (W3 m ρ c (Proc.devRef .tc main_arg3)) (W3 m ρ c (Proc.devRef .tc main_arg4)) (W3 m ρ c (Proc.devRef .tc main_v41)) = _
  rw [W3_arg0, W3_v40, W3_arg3, W3_arg4, W3_v41]
  rfl

include hfin0 hfin1 in
/-- After the second region the result buffer holds the output layer. -/
theorem result_value (c : Dev nD) : W6 m ρ c (Proc.devRef .tc main_v58) = resultK m c := by
  refine (W6_arr m ρ c 5).trans ((hfin1 (V5 m ρ) c).trans ?_)
  show Cert.Cheb.logProbs (W5 m ρ c (Proc.devRef .tc main_v42)) (W5 m ρ c (Proc.devRef .tc main_v56))
    (W5 m ρ c (Proc.devRef .tc main_arg6)) (W5 m ρ c (Proc.devRef .tc main_arg7)) (W5 m ρ c (Proc.devRef .tc main_v57)) = _
  rw [W5_v42, W5_v56, W5_arg6, W5_arg7, W5_v57, W4_v42 m ρ hfin0 c]
  rfl

end Cert.KernelIdeal.KernelChain

end
-- ==== Proof.Bridge.lean ====
/-
  The two programs' results are one function of the arguments.

  In the stages' spelling the network is a dense stage applied to the hidden layer and its aggregate,
  the hidden layer a dense stage applied to the features and theirs.  Read index by index, each
  dense stage is the row function of the specification; the graph stages around them are the same
  terms on both sides and stay closed.  The only other difference is how a bias vector becomes one
  row: a reshape of [n] to [1, n] on one side, a broadcast into [1, n] along axis 1 on the other;
  both read the vector at the row's second coordinate.
-/
import proofs.«140530_j7876970020889_1_alg».proof.Proof.Net
import proofs.«140530_j7876970020889_1_alg».proof.Proof.Spec
import Idealize.ShloMosaic.Lib.Pipeline.Value

noncomputable section

namespace Cert.Cheb.Bridge

open Idealize.ShloMosaic Idealize.ShloMosaic.TcCoe
open Cert.ReferenceIdeal Cert.ReferenceIdeal.Gen

variable {F : FTy → Type} [FloatOps F]

/-- A 16-vector broadcast into one row along axis 1 is its reshape to [1, 16]: entry (0, q) is entry q. -/
theorem biasRow16_eq (b : (⟨S16, .f32⟩ : BufTy).Contents (Elt F)) (h : S16.ShapeCasts S1x16) :
    Stages.biasRow16 (F := F) b = shapeCast S1x16 b h := by
  funext j
  unfold Stages.biasRow16
  refine (broadcastInDim_apply _ bcast_S16_S1x16_1 b j (fun a => j a.succ) (fun a => by
    match a with
    | ⟨0, _⟩ => show (j 1).val = if (16 : Nat) = 1 then 0 else (j 1).val; rw [if_neg (by decide)])).trans ?_
  exact (shapeCast_addUnit_apply ![16] b h j).symm

/-- The same for a 32-vector. -/
theorem biasRow32_eq (b : (⟨S32, .f32⟩ : BufTy).Contents (Elt F)) (h : S32.ShapeCasts S1x32) :
    Stages.biasRow32 (F := F) b = shapeCast S1x32 b h := by
  funext j
  unfold Stages.biasRow32
  refine (broadcastInDim_apply _ bcast_S32_S1x32_1 b j (fun a => j a.succ) (fun a => by
    match a with
    | ⟨0, _⟩ => show (j 1).val = if (32 : Nat) = 1 then 0 else (j 1).val; rw [if_neg (by decide)])).trans ?_
  exact (shapeCast_addUnit_apply ![32] b h j).symm

/-- The network in the stages' spelling is the specification's output layer of the specification's hidden
    layer, with the same graph stages between them, the biases as reshaped rows. -/
theorem net_eq
    (hst0 : ∀ (x t : FVec Ideal S100000x128 .f32) (w0 w1 : FVec Ideal S128x16 .f32) (b : FVec Ideal S1x16 .f32),
      Stages.denseRelu (F := Ideal) x t w0 w1 b = Cert.Cheb.hidden x t w0 w1 b)
    (hst1 : ∀ (h t : FVec Ideal S100000x16 .f32) (w0 w1 : FVec Ideal S16x32 .f32) (b : FVec Ideal S1x32 .f32),
      Stages.denseLogSoftmax (F := Ideal) h t w0 w1 b = Cert.Cheb.logProbs h t w0 w1 b)
    (x : FVec Ideal S100000x128 .f32) (ei : (⟨S2x1600000, .i32⟩ : BufTy).Contents (Elt Ideal)) (ew : FVec Ideal S1600000 .f32)
    (w10 w11 : FVec Ideal S128x16 .f32) (b1 : FVec Ideal S16 .f32) (w20 w21 : FVec Ideal S16x32 .f32) (b2 : FVec Ideal S32 .f32)
    (h16 : S16.ShapeCasts S1x16) (h32 : S32.ShapeCasts S1x32) :
    Stages.net (F := Ideal) x ei ew w10 w11 (Stages.biasRow16 b1) w20 w21 (Stages.biasRow32 b2)
      = Cert.Cheb.logProbs
          (Cert.Cheb.hidden x (Stages.aggr128 (F := Ideal) (Stages.edgeNorm ei ew) ei x) w10 w11 (shapeCast S1x16 b1 h16))
          (Stages.aggr16 (F := Ideal) (Stages.edgeNorm ei ew) ei
            (Cert.Cheb.hidden x (Stages.aggr128 (F := Ideal) (Stages.edgeNorm ei ew) ei x) w10 w11 (shapeCast S1x16 b1 h16)))
          w20 w21 (shapeCast S1x32 b2 h32) := by
  unfold Stages.net Stages.netHidden
  rw [hst1, hst0, biasRow16_eq (F := Ideal) b1 h16, biasRow32_eq (F := Ideal) b2 h32]

end Cert.Cheb.Bridge

end
-- ==== Proof.Hidden.Payload.lean ====
/-
  The first layer's block arithmetic, entry by entry.

  A block of 10000 node rows goes through two products against the 128 × 16 weight matrices, a bias row and a
  relu.  On the extended reals the narrowing of an operand to a shorter format and a reshape to the same shape
  change nothing, a product into a zero accumulator is the 128-term sum over the contracted coordinate, the
  bias row is read at the entry's column, and the maximum against the zero splat is the maximum against 0.  So
  entry (p, q) of the block's result depends on row p of the two left operands only, and is the row function
  of the specification at that row.
-/
import proofs.«140530_j7876970020889_1_alg».proof.Proof.Gen.KernelIdeal.Skeleton
import proofs.«140530_j7876970020889_1_alg».proof.Proof.Spec
import Idealize.ShloMosaic.PureOps.Ideal.Laws
import Idealize.ShloMosaic.Lib.ValueIdx
import Idealize.ShloMosaic.Lib.ValueLayout

noncomputable section

namespace Cert.KernelIdeal.Hidden

open Cert.KernelIdeal Cert.KernelIdeal.Gen Idealize.ShloMosaic Idealize.ShloMosaic.ValueIdx

/-- A 10000 × 128 block times a 128 × 16 matrix, accumulated from zero: entry (p, q) is the sum over the
    contracted coordinate κ of A (p, κ) * B (κ, q). -/
theorem matmul_block {φ₁ φ₂ : FTy} (A : FVec Ideal S10000x128 φ₁) (B : FVec Ideal S128x16 φ₂) (p : Fin 10000) (q : Fin 16) :
    FloatOps.matmul dot_S10000x128_S128x16_S10000x16_1_0_0_1_n_n none A B (constant S10000x16 .f32 0x00000000#32) (ix2 p q)
      = ∑ κ : Fin 128, A (ix2 p κ) * B (ix2 κ q) := by
  rw [Ideal.matmul_constant_zero_apply,
    ← Equiv.sum_comp (contrEquiv1 dot_S10000x128_S128x16_S10000x16_1_0_0_1_n_n 128 rfl rfl).symm]
  refine Finset.sum_congr rfl fun c _ => ?_
  have c2 := contrEquiv1_symm_val dot_S10000x128_S128x16_S10000x16_1_0_0_1_n_n 128 rfl rfl c
  -- the left operand is read at (p, κ): the row of the result's entry, the contracted coordinate
  have l2 : dot_S10000x128_S128x16_S10000x16_1_0_0_1_n_n.lhsIdx (ix2 p q) ((contrEquiv1 _ 128 rfl rfl).symm c) = ix2 p c := by
    funext ax; apply Fin.ext
    match ax with
    | ⟨0, _⟩ => rfl
    | ⟨1, _⟩ => exact (DotDims.lhsIdx_val_of_single _ (cl := 1) rfl _ _).trans c2
  -- the right operand at (κ, q): the contracted coordinate, the column of the result's entry
  have r2 : dot_S10000x128_S128x16_S10000x16_1_0_0_1_n_n.rhsIdx (ix2 p q) ((contrEquiv1 _ 128 rfl rfl).symm c) = ix2 c q := by
    funext ax; apply Fin.ext
    match ax with
    | ⟨0, _⟩ => exact (DotDims.rhsIdx_val_of_single _ (cr := 0) rfl _ _).trans c2
    | ⟨1, _⟩ => rfl
  rw [l2, r2]

/-- Entry (p, q) of the block's result is the specification's row function at row p of the two left blocks. -/
theorem payload_at (v0 v2 : Vec Ideal S10000x128 .f32) (v5 v7 : Vec Ideal S128x16 .f32) (v12 : Vec Ideal S1x16 .f32)
    (p : Fin 10000) (q : Fin 16) :
    k0_pay1 (F := Ideal) v0 v2 v5 v7 v12 (ix2 p q)
      = Cert.Cheb.rowHidden (fun κ => v0 (ix2 p κ)) (fun κ => v2 (ix2 p κ)) v5 v7 v12 q := by
  unfold k0_pay1 Cert.Cheb.rowHidden
  show max ((FloatOps.matmul (F := Ideal) dot_S10000x128_S128x16_S10000x16_1_0_0_1_n_n none _ _ (constant (F := Ideal) S10000x16 .f32 0x00000000#32) (ix2 p q)
        + FloatOps.matmul (F := Ideal) dot_S10000x128_S128x16_S10000x16_1_0_0_1_n_n none _ _ (constant (F := Ideal) S10000x16 .f32 0x00000000#32) (ix2 p q))
      + broadcastTo S10000x16 (shapeCast S1x16 v12 shapeCasts_S1x16_S1x16) broadcasts_S1x16_S10000x16 (ix2 p q))
      (Ideal.ofBits .f32 0x00000000#32) = _
  rw [matmul_block, matmul_block, broadcastTo_1b_ab_apply, shapeCast_self, shapeCast_self, Ideal.ofBits_zero_f32]
  rfl

end Cert.KernelIdeal.Hidden

end
-- ==== Proof.Hidden.Final.lean ====
/-
  From the blocks to the whole array.

  The first region runs over ten grid points; point t stages rows 10000 t … 10000 t + 9999 of the two node
  tables, the whole weight matrices and the whole bias row, and writes its block of the result back to the
  same rows of the result array.  Since an entry of the block's result depends on its own row of the left
  operands only, what point t writes back is block t of ONE function of the arrays the region is entered
  with: the specification's hidden layer.  The ten blocks tile the 100000 rows (row r lies in block r / 10000),
  so after the region the result array is that function.
-/
import proofs.«140530_j7876970020889_1_alg».proof.Proof.Gen.KernelIdeal.Frame
import proofs.«140530_j7876970020889_1_alg».proof.Proof.Spec
import proofs.«140530_j7876970020889_1_alg».proof.Proof.Hidden.Payload
import Idealize.ShloMosaic.Lib.Pipeline.Value

noncomputable section

namespace Cert.KernelIdeal.Hidden

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's accesses all start at the origin of their buffers. -/
theorem origin : (![0, 0] : Fin 2 → Nat) = fun _ => 0 := funext fun a => by fin_cases a <;> rfl

/-- Where each window's block sits at grid point t, decided over the ten points: the two node tables and the
    result move down the rows with t; the weights and the bias stay at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has ten points. -/
theorem point_lt (t : Fin cfg0.N) : t.val < 10 := by
  have h : cfg0.N = 10 := N_0
  have := t.isLt
  omega

/-- Entry (p, κ) of the features' block at point t is entry (10000 t + p, κ) of the feature table. -/
theorem iblk_features (c : Dev nD) (t : Fin cfg0.N) (p : Fin 10000) (κ : Fin 128) :
    (iblk0 V c 0 t : Vec Ideal S10000x128 .f32) (ix2 p κ)
      = (V c main_arg0 : S100000x128.Idx → EReal) (ix2 ⟨t.val * 10000 + p.val, by have := point_lt t; omega⟩ κ) := by
  obtain ⟨e0, e1, -⟩ := block_index t
  unfold iblk0
  rw [View.read_apply]
  show (V c main_arg0 : S100000x128.Idx → EReal) _ = (V c main_arg0 : S100000x128.Idx → EReal) _
  refine congrArg (V c main_arg0 : S100000x128.Idx → EReal) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 128 + 1 * κ.val = κ.val; rw [e1]; omega

/-- The same for the aggregate table. -/
theorem iblk_aggregate (c : Dev nD) (t : Fin cfg0.N) (p : Fin 10000) (κ : Fin 128) :
    (iblk0 V c 1 t : Vec Ideal S10000x128 .f32) (ix2 p κ)
      = (V c main_v40 : S100000x128.Idx → EReal) (ix2 ⟨t.val * 10000 + p.val, by have := point_lt t; omega⟩ κ) := by
  obtain ⟨-, -, e0, e1, -⟩ := block_index t
  unfold iblk0
  rw [View.read_apply]
  show (V c main_v40 : S100000x128.Idx → EReal) _ = (V c main_v40 : S100000x128.Idx → EReal) _
  refine congrArg (V c main_v40 : S100000x128.Idx → EReal) (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 128 + 1 * κ.val = κ.val; rw [e1]; omega

/-- The first weight matrix's block is the whole matrix at every point. -/
theorem iblk_weight0 (c : Dev nD) (t : Fin cfg0.N) :
    (iblk0 V c 2 t : Vec Ideal S128x16 .f32) = (V c main_arg3 : S128x16.Idx → EReal) := by
  obtain ⟨-, -, -, -, e0, e1, -⟩ := block_index t
  funext y
  unfold iblk0
  rw [View.read_apply]
  show (V c main_arg3 : S128x16.Idx → EReal) _ = (V c main_arg3 : S128x16.Idx → EReal) y
  refine congrArg (V c main_arg3 : S128x16.Idx → EReal) (funext fun a => Fin.ext ?_)
  match a with
  | ⟨0, _⟩ => show win0_2.index t (0 : Fin 2) * 128 + 1 * (y 0).val = (y 0).val; rw [e0]; omega
  | ⟨1, _⟩ => show win0_2.index t (1 : Fin 2) * 16 + 1 * (y 1).val = (y 1).val; rw [e1]; omega

/-- So is the second's. -/
theorem iblk_weight1 (c : Dev nD) (t : Fin cfg0.N) :
    (iblk0 V c 3 t : Vec Ideal S128x16 .f32) = (V c main_arg4 : S128x16.Idx → EReal) := by
  obtain ⟨-, -, -, -, -, -, e0, e1, -⟩ := block_index t
  funext y
  unfold iblk0
  rw [View.read_apply]
  show (V c main_arg4 : S128x16.Idx → EReal) _ = (V c main_arg4 : S128x16.Idx → EReal) y
  refine congrArg (V c main_arg4 : S128x16.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 16 + 1 * (y 1).val = (y 1).val; rw [e1]; omega

/-- And the bias row's block is the whole row. -/
theorem iblk_bias (c : Dev nD) (t : Fin cfg0.N) :
    (iblk0 V c 4 t : Vec Ideal S1x16 .f32) = (V c main_v41 : S1x16.Idx → EReal) := by
  obtain ⟨-, -, -, -, -, -, -, -, e0, e1, -⟩ := block_index t
  funext y
  unfold iblk0
  rw [View.read_apply]
  show (V c main_v41 : S1x16.Idx → EReal) _ = (V c main_v41 : S1x16.Idx → EReal) y
  refine congrArg (V c main_v41 : S1x16.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 16 + 1 * (y 1).val = (y 1).val; rw [e1]; omega

/-- One entry of a block's result, over plain arrays: if the two left blocks are rows 10000 n … of the tables
    X and T, the block's entry y is the hidden layer of X and T at the entry i = (10000 n + y 0, y 1). -/
theorem block_entry (X T : FVec Ideal S100000x128 .f32) (W0 W1 : FVec Ideal S128x16 .f32) (B : FVec Ideal S1x16 .f32)
    (x0 x1 : Vec Ideal S10000x128 .f32) (x2 x3 : Vec Ideal S128x16 .f32) (x4 : Vec Ideal S1x16 .f32)
    (n : Nat) (hn : n < 10)
    (h0 : ∀ (p : Fin 10000) (κ : Fin 128), x0 (ix2 p κ) = X (ix2 ⟨n * 10000 + p.val, by omega⟩ κ))
    (h1 : ∀ (p : Fin 10000) (κ : Fin 128), x1 (ix2 p κ) = T (ix2 ⟨n * 10000 + p.val, by omega⟩ κ))
    (h2 : x2 = W0) (h3 : x3 = W1) (h4 : x4 = B)
    (y : S10000x16.Idx) (i : S100000x16.Idx) (hi0 : (i 0).val = n * 10000 + (y 0).val) (hi1 : (i 1).val = (y 1).val) :
    k0_pay1 (F := Ideal) x0 x1 x2 x3 x4 y = Cert.Cheb.hidden X T W0 W1 B i := by
  subst h2 h3 h4
  obtain ⟨p, q, rfl⟩ : ∃ (p : Fin 10000) (q : Fin 16), y = ix2 p q := ⟨y 0, y 1, eq_ix2 y⟩
  have hi : i = ix2 (⟨n * 10000 + p.val, by have := p.isLt; omega⟩ : Fin 100000) q := by
    funext a; apply Fin.ext
    match a with
    | ⟨0, _⟩ => exact hi0
    | ⟨1, _⟩ => exact hi1
  rw [hi, payload_at, Cert.Cheb.hidden_ix2]
  unfold Cert.Cheb.hiddenAt
  rw [funext (h0 p), funext (h1 p)]

/-- What point t writes back is block t of the hidden layer of the arrays the region is entered with. -/
theorem flushed_eq (c : Dev nD) (t : Fin cfg0.N) :
    (dat0 (F := Ideal) V c).flushed 5 t = ((cfg0.win 5).blk t).view.read (Elt Ideal)
      (Cert.Cheb.hidden (V c main_arg0) (V c main_v40) (V c main_arg3) (V c main_arg4) (V c main_v41)) := by
  show (cfg0.win 5).cut (grid0.coords t) ((dat0 (F := Ideal) V c).after 5 t) = _
  rw [after0_5]
  unfold out0_5
  rw [View.canon_unit_zero origin]
  simp only [View.ld_unit_zero (S := S10000x128) origin, View.ld_unit_zero (S := S128x16) origin,
    View.ld_unit_zero (S := S1x16) origin]
  obtain ⟨-, -, -, -, -, -, -, -, -, -, e0, e1⟩ := block_index t
  funext j
  show k0_pay1 (F := Ideal) (iblk0 V c 0 t) (iblk0 V c 1 t) (iblk0 V c 2 t) (iblk0 V c 3 t) (iblk0 V c 4 t) j
    = Cert.Cheb.hidden (V c main_arg0) (V c main_v40) (V c main_arg3) (V c main_arg4) (V c main_v41)
        (((cfg0.win 5).blk t).view.emb j)
  refine block_entry (V c main_arg0) (V c main_v40) (V c main_arg3) (V c main_arg4) (V c main_v41)
    (iblk0 V c 0 t) (iblk0 V c 1 t) (iblk0 V c 2 t) (iblk0 V c 3 t) (iblk0 V c 4 t) t.val (point_lt t)
    (fun p κ => iblk_features V c t p κ) (fun p κ => iblk_aggregate V c t p κ)
    (iblk_weight0 V c t) (iblk_weight1 V c t) (iblk_bias V c t) j (((cfg0.win 5).blk t).view.emb j) ?_ ?_
  · show win0_5.index t (0 : Fin 2) * 10000 + 1 * (j 0).val = t.val * 10000 + (j 0).val
    rw [e0]; omega
  · show win0_5.index t (1 : Fin 2) * 16 + 1 * (j 1).val = (j 1).val
    rw [e1]; omega

/-- An entry of the result array lies in point t's block iff each coordinate is in the block's range. -/
theorem mem_blk (t : Fin cfg0.N) (i : S100000x16.Idx) :
    i ∈ ((cfg0.win 5).blk t).view.set ↔ ∀ a : Fin 2, win0_5.index t a * S10000x16.size a ≤ (i a).val
      ∧ (i a).val < win0_5.index t a * S10000x16.size a + S10000x16.size a := by
  show i ∈ ((View.whole main_v42).slice (win0_5.rect t)).set ↔ _
  rw [View.set_slice_whole, Rect.mem_set_unit]
  exact Iff.rfl

/-- Every entry of the result array is in some point's block: row r is in block r / 10000. -/
theorem cover (i : S100000x16.Idx) :
    ∃ t : Fin cfg0.N, (cfg0.win 5).flush t = true ∧ i ∈ ((cfg0.win 5).blk t).view.set := by
  have hN : cfg0.N = 10 := N_0
  have hi0 : (i 0).val < 100000 := (i 0).isLt
  have hi1 : (i 1).val < 16 := (i 1).isLt
  obtain ⟨t, ht⟩ : ∃ t : Fin cfg0.N, t.val = (i 0).val / 10000 := ⟨⟨(i 0).val / 10000, by omega⟩, rfl⟩
  obtain ⟨-, -, -, -, -, -, -, -, -, -, e0, e1⟩ := block_index t
  refine ⟨t, flush0_5 t, ?_⟩
  rw [mem_blk]
  intro a
  match a with
  | ⟨0, _⟩ =>
    show win0_5.index t (0 : Fin 2) * 10000 ≤ (i 0).val ∧ (i 0).val < win0_5.index t (0 : Fin 2) * 10000 + 10000
    rw [e0, ht]; omega
  | ⟨1, _⟩ =>
    show win0_5.index t (1 : Fin 2) * 16 ≤ (i 1).val ∧ (i 1).val < win0_5.index t (1 : Fin 2) * 16 + 16
    rw [e1]; omega

/-- After the first region the result array is the hidden layer of the arrays the region was entered with. -/
theorem final (c : Dev nD) :
    (dat0 (F := Ideal) V c).arrAt 5 cfg0.N
      = Cert.Cheb.hidden (V c main_arg0) (V c main_v40) (V c main_arg3) (V c main_arg4) (V c main_v41) :=
  (dat0 (F := Ideal) V c).arrAt_eq_of_cover 5 _ (fun t _ => flushed_eq V c t) cover

end Cert.KernelIdeal.Hidden

end
-- ==== Proof.Hidden.Stage.lean ====
/-
  The reference's first dense stage, entry by entry.

  The stage is two products of a 100000 × 128 array against 128 × 16 weight matrices, the bias row laid over
  every node row, and a maximum against the zero splat.  On the extended reals each product at (r, q) is the
  128-term sum over the contracted coordinate, the bias is read at column q, and the splat is 0: entry (r, q)
  is the specification's row function at node row r.
-/
import proofs.«140530_j7876970020889_1_alg».proof.Proof.Stages
import proofs.«140530_j7876970020889_1_alg».proof.Proof.Spec
import Idealize.ShloMosaic.PureOps.Ideal.Laws
import Idealize.ShloMosaic.Lib.ValueIdx
import Idealize.ShloMosaic.Lib.Pipeline.Value

noncomputable section

namespace Cert.ReferenceIdeal.Hidden

open Cert.ReferenceIdeal Cert.ReferenceIdeal.Gen Idealize.ShloMosaic Idealize.ShloMosaic.TcCoe Idealize.ShloMosaic.ValueIdx

/-- A 100000 × 128 array times a 128 × 16 matrix on the host: entry (r, q) is the sum over the contracted
    coordinate κ of A (r, κ) * B (κ, q). -/
theorem dot_at {φ₁ φ₂ : FTy} (A : FVec Ideal S100000x128 φ₁) (B : FVec Ideal S128x16 φ₂) (r : Fin 100000) (q : Fin 16) :
    Host.dotGeneral (F := Ideal) dot_S100000x128_S128x16_S100000x16_1_0_0_1_n_n none A B (ix2 r q)
      = ∑ κ : Fin 128, A (ix2 r κ) * B (ix2 κ q) := by
  show FloatOps.dotGeneral _ none _ A B (ix2 r q) = _
  rw [Ideal.dotGeneral_apply,
    ← Equiv.sum_comp (contrEquiv1 dot_S100000x128_S128x16_S100000x16_1_0_0_1_n_n 128 rfl rfl).symm]
  refine Finset.sum_congr rfl fun c _ => ?_
  have c2 := contrEquiv1_symm_val dot_S100000x128_S128x16_S100000x16_1_0_0_1_n_n 128 rfl rfl c
  -- the left operand is read at (r, κ): the row of the result's entry, the contracted coordinate
  have l2 : dot_S100000x128_S128x16_S100000x16_1_0_0_1_n_n.lhsIdx (ix2 r q) ((contrEquiv1 _ 128 rfl rfl).symm c) = ix2 r c := by
    funext ax; apply Fin.ext
    match ax with
    | ⟨0, _⟩ => rfl
    | ⟨1, _⟩ => exact (DotDims.lhsIdx_val_of_single _ (cl := 1) rfl _ _).trans c2
  -- the right operand at (κ, q): the contracted coordinate, the column of the result's entry
  have r2 : dot_S100000x128_S128x16_S100000x16_1_0_0_1_n_n.rhsIdx (ix2 r q) ((contrEquiv1 _ 128 rfl rfl).symm c) = ix2 c q := by
    funext ax; apply Fin.ext
    match ax with
    | ⟨0, _⟩ => exact (DotDims.rhsIdx_val_of_single _ (cr := 0) rfl _ _).trans c2
    | ⟨1, _⟩ => rfl
  rw [l2, r2]

/-- The bias row laid over the node rows reads, at (r, q), the row's entry q. -/
theorem bias_at (b : FVec Ideal S1x16 .f32) (r : Fin 100000) (q : Fin 16) :
    broadcastInDim S100000x16 ![0, 1] bcast_S1x16_S100000x16_0_1 b (ix2 r q) = b (ix2 (0 : Fin 1) q) := by
  refine broadcastInDim_apply _ _ b (ix2 r q) (ix2 (0 : Fin 1) q) fun a => ?_
  match a with
  | ⟨0, _⟩ => rfl
  | ⟨1, _⟩ => rfl

/-- The zero splat reads 0 everywhere. -/
theorem zero_at (r : Fin 100000) (q : Fin 16) :
    broadcastInDim S100000x16 ![] bcast_S_S100000x16 (constant (F := Ideal) S_ .f32 0x00000000#32) (ix2 r q) = 0 := by
  refine (broadcastInDim_apply _ _ _ (ix2 r q) ix0 fun a => a.elim0).trans ?_
  exact Ideal.ofBits_zero_f32

/-- The reference's first dense stage is the specification's hidden layer. -/
theorem stage (x t : FVec Ideal S100000x128 .f32) (w0 w1 : FVec Ideal S128x16 .f32) (b : FVec Ideal S1x16 .f32) :
    Cert.ReferenceIdeal.Stages.denseRelu (F := Ideal) x t w0 w1 b = Cert.Cheb.hidden x t w0 w1 b := by
  funext i
  obtain ⟨r, q, rfl⟩ : ∃ (r : Fin 100000) (q : Fin 16), i = ix2 r q := ⟨i 0, i 1, eq_ix2 i⟩
  rw [Cert.Cheb.hidden_ix2]
  unfold Cert.Cheb.hiddenAt Cert.Cheb.rowHidden Cert.ReferenceIdeal.Stages.denseRelu
  show max ((Host.dotGeneral (F := Ideal) dot_S100000x128_S128x16_S100000x16_1_0_0_1_n_n none x w0 (ix2 r q)
        + Host.dotGeneral (F := Ideal) dot_S100000x128_S128x16_S100000x16_1_0_0_1_n_n none t w1 (ix2 r q))
      + broadcastInDim S100000x16 ![0, 1] bcast_S1x16_S100000x16_0_1 b (ix2 r q))
      (broadcastInDim S100000x16 ![] bcast_S_S100000x16 (constant (F := Ideal) S_ .f32 0x00000000#32) (ix2 r q)) = _
  rw [dot_at, dot_at, bias_at, zero_at]

end Cert.ReferenceIdeal.Hidden

end
-- ==== Proof.LogProbs.Payload.lean ====
/-
  The output layer's body, read at an index.

  On a block of 10000 rows the body forms the logits  h·W0 + t·W1 + b  (two 16-term products per entry and the bias
  row), takes each row's maximum over its 32 lanes, shifts the row by it, and subtracts the log of the row's sum of
  exponentials.  Narrowing an operand to bf16 and casting a vector to its own shape do nothing on the extended
  reals, so entry (p, q) of the result is the log-softmax, at q, of row p's logits — a function of row p of the
  two left operands alone.
-/
import proofs.«140530_j7876970020889_1_alg».proof.Proof.Gen.KernelIdeal.Skeleton
import proofs.«140530_j7876970020889_1_alg».proof.Proof.Spec
import Idealize.ShloMosaic.Lib.ValueLayout
import Idealize.ShloMosaic.PureOps.Ideal.Laws

noncomputable section

namespace Cert.KernelIdeal.LogProbs

open Cert.KernelIdeal Cert.KernelIdeal.Gen Idealize.ShloMosaic Idealize.ShloMosaic.ValueIdx

/-! ## Column forms of a cast and a broadcast, read at an index -/

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products -/

/-- A block's product with a weight matrix into the zero splat, at `(p, q)`: the 16-term sum of row `p` against
    column `q` (the contraction index re-indexed by its one coordinate). -/
theorem matmul_at {φ₁ φ₂ : FTy} (A : FVec Ideal S10000x16 φ₁) (B : FVec Ideal S16x32 φ₂) (p : Fin 10000) (q : Fin 32) :
    matmul (F := Ideal) dot_S10000x16_S16x32_S10000x32_1_0_0_1_n_n none A B (constant (F := Ideal) S10000x32 .f32 0x00000000#32) (ix2 p q)
      = ∑ κ : Fin 16, A (ix2 p κ) * B (ix2 κ q) := by
  refine (Ideal.matmul_constant_zero_apply dot_S10000x16_S16x32_S10000x32_1_0_0_1_n_n none A B (ix2 p q)).trans ?_
  rw [← Equiv.sum_comp (contrEquiv1 dot_S10000x16_S16x32_S10000x32_1_0_0_1_n_n 16 rfl rfl).symm]
  refine Finset.sum_congr rfl fun c _ => ?_
  have c2 := contrEquiv1_symm_val dot_S10000x16_S16x32_S10000x32_1_0_0_1_n_n 16 rfl rfl c
  have l2 : dot_S10000x16_S16x32_S10000x32_1_0_0_1_n_n.lhsIdx (ix2 p q) ((contrEquiv1 _ 16 rfl rfl).symm c) = ix2 p c := by
    funext ax; apply Fin.ext
    match ax with
    | ⟨0, _⟩ => simp [DotDims.lhsIdx, dot_S10000x16_S16x32_S10000x32_1_0_0_1_n_n]; rfl
    | ⟨1, _⟩ => simp [DotDims.lhsIdx, dot_S10000x16_S16x32_S10000x32_1_0_0_1_n_n]; exact c2
  have r2 : dot_S10000x16_S16x32_S10000x32_1_0_0_1_n_n.rhsIdx (ix2 p q) ((contrEquiv1 _ 16 rfl rfl).symm c) = ix2 c q := by
    funext ax; apply Fin.ext
    match ax with
    | ⟨0, _⟩ => simp [DotDims.rhsIdx, dot_S10000x16_S16x32_S10000x32_1_0_0_1_n_n]; exact c2
    | ⟨1, _⟩ => simp [DotDims.rhsIdx, dot_S10000x16_S16x32_S10000x32_1_0_0_1_n_n]; rfl
  rw [l2, r2]

/-! ## The two lane reductions -/

/-- The source index over row `p` with lane `k` inserted is `(p, k)`. -/
theorem lift_row (p : Fin 10000) (k : Fin 32) :
    reduces_S10000x32_S10000.lift (ix1 p) k = ix2 p k := by
  funext ax; apply Fin.ext
  match ax with
  | ⟨0, _⟩ => rfl
  | ⟨1, _⟩ => rfl

/-- The lane maximum of row `p`: the fold of `max` from minus infinity over the row's 32 entries. -/
theorem laneMax_at (a : FVec Ideal S10000x32 .f32) (hφ : FKind.Formats .f32)
    (hacc : (0xFF800000#32 : BitVec 32) = FKind.maximumf.neutral .f32 hφ) (p : Fin 10000) :
    multiReduction (F := Ideal) .maximumf [1] S10000 a 0xFF800000#32 reduces_S10000x32_S10000 hφ hacc (ix1 p)
      = Cert.Cheb.rowMax (fun j => a (ix2 p j)) := by
  refine (Ideal.multiReduction_maximumf_single a 0xFF800000#32 reduces_S10000x32_S10000 hφ hacc (ix1 p)).trans ?_
  show (Finset.univ : Finset (Fin 32)).fold max (Ideal.ofBits .f32 0xFF800000#32) (a ∘ reduces_S10000x32_S10000.lift (ix1 p)) = _
  unfold Cert.Cheb.rowMax
  exact congrArg (fun f => (Finset.univ : Finset (Fin 32)).fold max Cert.Cheb.negInf f) (funext fun k => congrArg a (lift_row p k))

/-- The lane sum of row `p`: the sum of the row's 32 entries. -/
theorem laneSum_at (a : FVec Ideal S10000x32 .f32) (hφ : FKind.Formats .f32)
    (hacc : (0x00000000#32 : BitVec 32) = FKind.add.neutral .f32 hφ) (p : Fin 10000) :
    multiReduction (F := Ideal) .add [1] S10000 a 0x00000000#32 reduces_S10000x32_S10000 hφ hacc (ix1 p)
      = ∑ j : Fin 32, a (ix2 p j) := by
  refine (Ideal.multiReduction_add_single a 0x00000000#32 reduces_S10000x32_S10000 hφ hacc (ix1 p)).trans ?_
  show ∑ k : Fin 32, a (reduces_S10000x32_S10000.lift (ix1 p) k) = _
  exact Finset.sum_congr rfl fun k _ => congrArg a (lift_row p k)

/-! ## The tail, the logits, the payload -/

/-- A vector's `exp` and `log` read at an index. -/
theorem exp_at {s : Shape} (x : FVec Ideal s .f32) (i : s.Idx) : exp x i = Ideal.exp (x i) := rfl
theorem log_at {s : Shape} (x : FVec Ideal s .f32) (i : s.Idx) : log x i = Ideal.log (x i) := rfl

/-- The row maximum as the body spreads it over the block: at `(p, j)` it is the maximum of row `p`. -/
theorem spreadMax_at (a : FVec Ideal S10000x32 .f32) (p : Fin 10000) (j : Fin 32) :
    broadcastTo S10000x32 (shapeCast S10000x1
        (multiReduction (F := Ideal) .maximumf [1] S10000 a 0xFF800000#32 reduces_S10000x32_S10000 (.inl rfl) rfl)
        shapeCasts_S10000_S10000x1) broadcasts_S10000x1_S10000x32 (ix2 p j)
      = Cert.Cheb.rowMax (fun j => a (ix2 p j)) := by
  refine (broadcastTo_a1_ab_apply _ broadcasts_S10000x1_S10000x32 p j).trans ?_
  refine (shapeCast_a_a1_apply _ shapeCasts_S10000_S10000x1 p 0).trans ?_
  exact laneMax_at a _ _ p

/-- The body's tail on a block `a` of logits: shift each row by its maximum, subtract the log of the row's sum of
    exponentials. At `(p, q)` it is the log-softmax of row `p` at `q`. -/
theorem tail_at (a : FVec Ideal S10000x32 .f32) (p : Fin 10000) (q : Fin 32) :
    subf (subf a (broadcastTo S10000x32 (shapeCast S10000x1
          (multiReduction (F := Ideal) .maximumf [1] S10000 a 0xFF800000#32 reduces_S10000x32_S10000 (.inl rfl) rfl)
          shapeCasts_S10000_S10000x1) broadcasts_S10000x1_S10000x32))
      (broadcastTo S10000x32 (log (shapeCast S10000x1
          (multiReduction (F := Ideal) .add [1] S10000
            (exp (subf a (broadcastTo S10000x32 (shapeCast S10000x1
              (multiReduction (F := Ideal) .maximumf [1] S10000 a 0xFF800000#32 reduces_S10000x32_S10000 (.inl rfl) rfl)
              shapeCasts_S10000_S10000x1) broadcasts_S10000x1_S10000x32)))
            0x00000000#32 reduces_S10000x32_S10000 (.inl rfl) rfl)
          shapeCasts_S10000_S10000x1)) broadcasts_S10000x1_S10000x32) (ix2 p q)
      = Cert.Cheb.rowLogSoftmax (fun j => a (ix2 p j)) q := by
  unfold Cert.Cheb.rowLogSoftmax
  rw [subf_apply, subf_apply, spreadMax_at a p q]
  refine congrArg (fun z => a (ix2 p q) - Cert.Cheb.rowMax (fun j => a (ix2 p j)) - z) ?_
  refine (broadcastTo_a1_ab_apply _ broadcasts_S10000x1_S10000x32 p q).trans ?_
  rw [log_at]
  refine congrArg Ideal.log ?_
  refine (shapeCast_a_a1_apply _ shapeCasts_S10000_S10000x1 p 0).trans ?_
  refine (laneSum_at _ _ _ p).trans ?_
  refine Finset.sum_congr rfl fun j _ => ?_
  rw [exp_at, subf_apply, spreadMax_at a p j]

/-- The block of logits at `(p, j)`: the two 16-term products of row `p` against the weight columns, plus the bias. -/
theorem logits_at (v0 v3 : Vec Ideal S10000x16 .f32) (v6 v8 : Vec Ideal S16x32 .f32) (v13 : Vec Ideal S1x32 .f32)
    (p : Fin 10000) (j : Fin 32) :
    addf (addf
        (matmul (F := Ideal) dot_S10000x16_S16x32_S10000x32_1_0_0_1_n_n none
          (truncf .bf16 (shapeCast S10000x16 v0 shapeCasts_S10000x16_S10000x16) bitsLt_bf16_f32)
          (truncf .bf16 v6 bitsLt_bf16_f32) (constant (F := Ideal) S10000x32 .f32 0x00000000#32))
        (matmul (F := Ideal) dot_S10000x16_S16x32_S10000x32_1_0_0_1_n_n none
          (truncf .bf16 (shapeCast S10000x16 v3 shapeCasts_S10000x16_S10000x16) bitsLt_bf16_f32)
          (truncf .bf16 v8 bitsLt_bf16_f32) (constant (F := Ideal) S10000x32 .f32 0x00000000#32)))
      (broadcastTo S10000x32 (shapeCast S1x32 v13 shapeCasts_S1x32_S1x32) broadcasts_S1x32_S10000x32) (ix2 p j)
      = Cert.Cheb.rowLogit (fun κ => v0 (ix2 p κ)) (fun κ => v3 (ix2 p κ)) v6 v8 v13 j := by
  unfold Cert.Cheb.rowLogit
  rw [addf_apply, addf_apply, matmul_at, matmul_at, broadcastTo_1b_ab_apply, shapeCast_self, shapeCast_self, shapeCast_self]
  rfl

/-- THE PAYLOAD AT AN INDEX: entry `(p, q)` of what the body stores is the log-softmax, at `q`, of row `p`'s logits. -/
theorem pay_at (v0 v3 : Vec Ideal S10000x16 .f32) (v6 v8 : Vec Ideal S16x32 .f32) (v13 : Vec Ideal S1x32 .f32)
    (p : Fin 10000) (q : Fin 32) :
    k1_pay1 v0 v3 v6 v8 v13 (ix2 p q)
      = Cert.Cheb.rowLogSoftmax (fun j => Cert.Cheb.rowLogit (fun κ => v0 (ix2 p κ)) (fun κ => v3 (ix2 p κ)) v6 v8 v13 j) q := by
  unfold k1_pay1
  refine (tail_at _ p q).trans ?_
  exact congrArg (fun f => Cert.Cheb.rowLogSoftmax f q) (funext fun j => logits_at v0 v3 v6 v8 v13 p j)

end Cert.KernelIdeal.LogProbs

end
-- ==== Proof.LogProbs.Final.lean ====
/-
  The output array after the second region.

  The grid has ten points; point t works on rows 10000 t … 10000 t + 9999.  Its two row-block inputs are those rows of
  the hidden array and of its neighbourhood aggregate; the two weight matrices and the bias row come whole at every
  point.  An entry of the block the body stores depends on one row of each row-block input, so what point t writes
  back is block t of ONE function of the arrays the region finds — the output layer, row by row — and the ten blocks
  tile the output array: row r lies in the block of point r / 10000.
-/
import proofs.«140530_j7876970020889_1_alg».proof.Proof.Gen.KernelIdeal.Frame
import proofs.«140530_j7876970020889_1_alg».proof.Proof.Spec
import proofs.«140530_j7876970020889_1_alg».proof.Proof.LogProbs.Payload
import Idealize.ShloMosaic.Lib.Pipeline.Value

noncomputable section

namespace Cert.KernelIdeal.LogProbs

open Cert.KernelIdeal Cert.KernelIdeal.Gen Idealize.ShloMosaic Idealize.ShloMosaic.TcCoe Idealize.SL.Sem
open Idealize.ShloMosaic.Pipeline (Dat)
open Idealize.ShloMosaic.ValueIdx

section Blocks

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps, decided over the ten grid points: the two row-block inputs move with the output block,
    whose block row is the point's number; the weights and the bias row stay at block (0, 0). -/
theorem blockIndices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the hidden block at point `t` is row `10000 t + p` of the hidden array. -/
theorem hiddenBlock_at (c : Dev nD) (t : Fin cfg1.N) (p : Fin 10000) (κ : Fin 16) (r : Fin 100000)
    (hr : r.val = t.val * 10000 + p.val) :
    (iblk1 V c 0 t : Vec Ideal S10000x16 .f32) (ix2 p κ) = (V c main_v42 : FVec Ideal S100000x16 .f32) (ix2 r κ) := by
  obtain ⟨e0, e1, -⟩ := blockIndices t
  unfold iblk1
  rw [View.read_apply]
  show V c main_v42 _ = V c main_v42 _
  congr 1
  funext a; apply Fin.ext
  match a with
  | ⟨0, _⟩ => show win1_0.index t (0 : Fin 2) * 10000 + 1 * p.val = r.val; omega
  | ⟨1, _⟩ => show win1_0.index t (1 : Fin 2) * 16 + 1 * κ.val = κ.val; omega

/-- Row `p` of the aggregate block at point `t` is row `10000 t + p` of the aggregate array. -/
theorem aggrBlock_at (c : Dev nD) (t : Fin cfg1.N) (p : Fin 10000) (κ : Fin 16) (r : Fin 100000)
    (hr : r.val = t.val * 10000 + p.val) :
    (iblk1 V c 1 t : Vec Ideal S10000x16 .f32) (ix2 p κ) = (V c main_v56 : FVec Ideal S100000x16 .f32) (ix2 r κ) := by
  obtain ⟨-, -, e0, e1, -⟩ := blockIndices t
  unfold iblk1
  rw [View.read_apply]
  show V c main_v56 _ = V c main_v56 _
  congr 1
  funext a; apply Fin.ext
  match a with
  | ⟨0, _⟩ => show win1_1.index t (0 : Fin 2) * 10000 + 1 * p.val = r.val; omega
  | ⟨1, _⟩ => show win1_1.index t (1 : Fin 2) * 16 + 1 * κ.val = κ.val; omega

/-- The first weight matrix's one block is the matrix. -/
theorem weight0Block (c : Dev nD) (t : Fin cfg1.N) :
    (iblk1 V c 2 t : Vec Ideal S16x32 .f32) = (V c main_arg6 : FVec Ideal S16x32 .f32) := by
  obtain ⟨-, -, -, -, e0, e1, -⟩ := blockIndices t
  funext y
  unfold iblk1
  rw [View.read_apply]
  show V c main_arg6 _ = V c main_arg6 _
  congr 1
  funext a; apply Fin.ext
  match a with
  | ⟨0, _⟩ => show win1_2.index t (0 : Fin 2) * 16 + 1 * (y 0).val = (y 0).val; omega
  | ⟨1, _⟩ => show win1_2.index t (1 : Fin 2) * 32 + 1 * (y 1).val = (y 1).val; omega

/-- The second weight matrix's one block is the matrix. -/
theorem weight1Block (c : Dev nD) (t : Fin cfg1.N) :
    (iblk1 V c 3 t : Vec Ideal S16x32 .f32) = (V c main_arg7 : FVec Ideal S16x32 .f32) := by
  obtain ⟨-, -, -, -, -, -, e0, e1, -⟩ := blockIndices t
  funext y
  unfold iblk1
  rw [View.read_apply]
  show V c main_arg7 _ = V c main_arg7 _
  congr 1
  funext a; apply Fin.ext
  match a with
  | ⟨0, _⟩ => show win1_3.index t (0 : Fin 2) * 16 + 1 * (y 0).val = (y 0).val; omega
  | ⟨1, _⟩ => show win1_3.index t (1 : Fin 2) * 32 + 1 * (y 1).val = (y 1).val; omega

/-- The bias row's one block is the row. -/
theorem biasBlock (c : Dev nD) (t : Fin cfg1.N) :
    (iblk1 V c 4 t : Vec Ideal S1x32 .f32) = (V c main_v57 : FVec Ideal S1x32 .f32) := by
  obtain ⟨-, -, -, -, -, -, -, -, e0, e1, -⟩ := blockIndices t
  funext y
  unfold iblk1
  rw [View.read_apply]
  show V c main_v57 _ = V c main_v57 _
  congr 1
  funext a; apply Fin.ext
  match a with
  | ⟨0, _⟩ => show win1_4.index t (0 : Fin 2) * 1 + 1 * (y 0).val = (y 0).val; omega
  | ⟨1, _⟩ => show win1_4.index t (1 : Fin 2) * 32 + 1 * (y 1).val = (y 1).val; omega

/-- The block that grid point `t` sends back to the output array is rows `10000 t … 10000 t + 9999` of the output
    layer computed from the arrays as the region finds them: each stored entry is the log-softmax of its own row's
    logits, and the row-block inputs are those same rows of the hidden array and of its aggregate. -/
theorem pointWrites_block (c : Dev nD) (t : Fin cfg1.N) :
    (dat1 (F := Ideal) V c).flushed 5 t = ((cfg1.win 5).blk t).view.read (Elt Ideal)
      (Cert.Cheb.logProbs (V c main_v42) (V c main_v56) (V c main_arg6) (V c main_arg7) (V c main_v57)) := by
  show (cfg1.win 5).cut (grid1.coords t) ((dat1 V c).after 5 t) = _
  rw [after1_5]
  unfold out1_5
  rw [View.canon_unit_zero zeroOffsets]
  simp only [View.ld_unit_zero (S := S10000x16) zeroOffsets, View.ld_unit_zero (S := S16x32) zeroOffsets,
    View.ld_unit_zero (S := S1x32) zeroOffsets]
  obtain ⟨-, -, -, -, -, -, -, -, -, -, e0, e1⟩ := blockIndices t
  have hN : grid1.N = 10 := N_1
  funext j
  obtain ⟨p, q, rfl⟩ : ∃ (p : Fin 10000) (q : Fin 32), j = ix2 p q := ⟨j 0, j 1, eq_ix2 j⟩
  have hlt : t.val * 10000 + p.val < 100000 := by
    have h1 : t.val < grid1.N := t.isLt
    have h2 := p.isLt
    omega
  have hemb : ((cfg1.win 5).blk t).view.emb (ix2 p q) = ix2 (⟨t.val * 10000 + p.val, hlt⟩ : Fin 100000) q := by
    funext a; apply Fin.ext
    match a with
    | ⟨0, _⟩ => show win1_5.index t (0 : Fin 2) * 10000 + 1 * p.val = t.val * 10000 + p.val; omega
    | ⟨1, _⟩ => show win1_5.index t (1 : Fin 2) * 32 + 1 * q.val = q.val; omega
  show k1_pay1 (iblk1 V c 0 t) (iblk1 V c 1 t) (iblk1 V c 2 t) (iblk1 V c 3 t) (iblk1 V c 4 t) (ix2 p q)
    = Cert.Cheb.logProbs (V c main_v42) (V c main_v56) (V c main_arg6) (V c main_arg7) (V c main_v57)
        (((cfg1.win 5).blk t).view.emb (ix2 p q))
  rw [hemb, Cert.Cheb.logProbs_ix2]
  refine (pay_at _ _ _ _ _ p q).trans ?_
  unfold Cert.Cheb.logProbsAt
  rw [weight0Block V c t, weight1Block V c t, biasBlock V c t]
  refine congrArg (fun f => Cert.Cheb.rowLogSoftmax f q) (funext fun j => ?_)
  refine congrArg₂ (fun a b => Cert.Cheb.rowLogit a b _ _ _ j) (funext fun κ => ?_) (funext fun κ => ?_)
  · exact hiddenBlock_at V c t p κ _ rfl
  · exact aggrBlock_at V c t p κ _ rfl

/-- Membership in the output block of point `t`, as two inequalities per axis: the block starts at its block index
    times the block extent and is one block extent long. -/
theorem mem_outputBlock (t : Fin cfg1.N) (i : S100000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v58).slice (win1_5.rect t)).set ↔ _
  rw [View.set_slice_whole, Rect.mem_set_unit]
  exact Iff.rfl

/-- The ten output blocks tile the array: row `r` lies in the block of point `r / 10000`, and a block spans all 32 classes. -/
theorem rows_tiled (i : S100000x32.Idx) :
    ∃ t : Fin cfg1.N, (cfg1.win 5).flush t = true ∧ i ∈ ((cfg1.win 5).blk t).view.set := by
  have hN : grid1.N = 10 := N_1
  have hi0 : (i 0).val < 100000 := (i 0).isLt
  have hi1 : (i 1).val < 32 := (i 1).isLt
  obtain ⟨t, ht⟩ : ∃ t : Fin cfg1.N, t.val = (i 0).val / 10000 :=
    ⟨⟨(i 0).val / 10000, by show (i 0).val / 10000 < grid1.N; omega⟩, rfl⟩
  obtain ⟨-, -, -, -, -, -, -, -, -, -, e0, e1⟩ := blockIndices t
  refine ⟨t, flush1_5 t, ?_⟩
  rw [mem_outputBlock]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 32 ≤ (i 1).val ∧ (i 1).val < win1_5.index t (1 : Fin 2) * 32 + 32
    omega

end Blocks

/-- After the second region the output array holds the output layer — the row-wise log-softmax of
    `h·W0 + t·W1 + b` — of the hidden array, its aggregate, the two weight matrices and the bias row as the region
    finds them. -/
theorem final (V : (c : Dev nD) → (b : Ref sig .tc) → Buf (Elt Ideal) ((c : Thread nD τ).loc b)) (c : Dev nD) :
    (dat1 (F := Ideal) V c).arrAt 5 cfg1.N
      = Cert.Cheb.logProbs (V c main_v42) (V c main_v56) (V c main_arg6) (V c main_arg7) (V c main_v57) :=
  (dat1 (F := Ideal) V c).arrAt_eq_of_cover 5 _ (fun t _ => pointWrites_block V c t) rows_tiled

end Cert.KernelIdeal.LogProbs

end
-- ==== Proof.LogProbs.Stage.lean ====
/-
  The reference's output stage, read at an index.

  The reference forms the same logits  h·W0 + t·W1 + b  on the whole node table (two 16-term products per entry and
  the bias row spread over the nodes), takes each row's maximum — a fold of max from minus infinity, then once more
  the maximum with minus infinity, which changes nothing —, shifts the row by it, and subtracts the log of the row's
  sum of exponentials, taken from zero.  Entry (r, q) is therefore the log-softmax, at q, of row r's logits.
-/
import proofs.«140530_j7876970020889_1_alg».proof.Proof.Stages
import proofs.«140530_j7876970020889_1_alg».proof.Proof.Spec
import Idealize.ShloMosaic.Lib.ValueLayout
import Idealize.ShloMosaic.PureOps.Ideal.Laws
import Idealize.ShloMosaic.PureOps.Reduce

noncomputable section

namespace Cert.ReferenceIdeal.LogProbs

open Cert.ReferenceIdeal Cert.ReferenceIdeal.Gen Idealize.ShloMosaic Idealize.ShloMosaic.TcCoe
open Idealize.ShloMosaic.ValueIdx

/-! ## The two products -/

/-- The host's product of the node table with a weight matrix, at `(r, q)`: the 16-term sum of row `r` against
    column `q` (the contraction index re-indexed by its one coordinate). -/
theorem dot_at {φ₁ φ₂ : FTy} (A : FVec Ideal S100000x16 φ₁) (B : FVec Ideal S16x32 φ₂) (r : Fin 100000) (q : Fin 32) :
    Host.dotGeneral (F := Ideal) dot_S100000x16_S16x32_S100000x32_1_0_0_1_n_n none A B (ix2 r q)
      = ∑ κ : Fin 16, A (ix2 r κ) * B (ix2 κ q) := by
  refine (Ideal.dotGeneral_apply dot_S100000x16_S16x32_S100000x32_1_0_0_1_n_n none .single A B (ix2 r q)).trans ?_
  rw [← Equiv.sum_comp (contrEquiv1 dot_S100000x16_S16x32_S100000x32_1_0_0_1_n_n 16 rfl rfl).symm]
  refine Finset.sum_congr rfl fun c _ => ?_
  have c2 := contrEquiv1_symm_val dot_S100000x16_S16x32_S100000x32_1_0_0_1_n_n 16 rfl rfl c
  have l2 : dot_S100000x16_S16x32_S100000x32_1_0_0_1_n_n.lhsIdx (ix2 r q) ((contrEquiv1 _ 16 rfl rfl).symm c) = ix2 r c := by
    funext ax; apply Fin.ext
    match ax with
    | ⟨0, _⟩ => simp [DotDims.lhsIdx, dot_S100000x16_S16x32_S100000x32_1_0_0_1_n_n]; rfl
    | ⟨1, _⟩ => simp [DotDims.lhsIdx, dot_S100000x16_S16x32_S100000x32_1_0_0_1_n_n]; exact c2
  have r2 : dot_S100000x16_S16x32_S100000x32_1_0_0_1_n_n.rhsIdx (ix2 r q) ((contrEquiv1 _ 16 rfl rfl).symm c) = ix2 c q := by
    funext ax; apply Fin.ext
    match ax with
    | ⟨0, _⟩ => simp [DotDims.rhsIdx, dot_S100000x16_S16x32_S100000x32_1_0_0_1_n_n]; exact c2
    | ⟨1, _⟩ => simp [DotDims.rhsIdx, dot_S100000x16_S16x32_S100000x32_1_0_0_1_n_n]; rfl
  rw [l2, r2]

/-! ## The broadcasts, read at an index -/

section Layout
variable {α : Type}

/-- The bias row spread over the nodes: at `(r, q)` the row's entry `q`. -/
theorem biasRows_apply (x : S1x32.Idx → α) (r : Fin 100000) (q : Fin 32) :
    broadcastInDim S100000x32 ![0, 1] bcast_S1x32_S100000x32_0_1 x (ix2 r q) = x (ix2 (0 : Fin 1) q) := by
  refine broadcastInDim_apply _ _ x (ix2 r q) (ix2 (0 : Fin 1) q) fun a => ?_
  match a with
  | ⟨0, _⟩ => rfl
  | ⟨1, _⟩ => rfl

/-- A per-node vector as a column: at `(r, u)` the vector's entry `r`. -/
theorem column_apply (v : S100000.Idx → α) (r : Fin 100000) (u : Fin 1) :
    broadcastInDim S100000x1 ![0] bcast_S100000_S100000x1_0 v (ix2 r u) = v (ix1 r) := by
  refine broadcastInDim_apply _ _ v (ix2 r u) (ix1 r) fun a => ?_
  match a with
  | ⟨0, _⟩ => rfl

/-- A column spread along the rows: at `(r, q)` the column's entry of row `r`. -/
theorem spread_apply (w : S100000x1.Idx → α) (r : Fin 100000) (q : Fin 32) :
    broadcastInDim S100000x32 ![0, 1] bcast_S100000x1_S100000x32_0_1 w (ix2 r q) = w (ix2 r (0 : Fin 1)) := by
  refine broadcastInDim_apply _ _ w (ix2 r q) (ix2 r (0 : Fin 1)) fun a => ?_
  match a with
  | ⟨0, _⟩ => rfl
  | ⟨1, _⟩ => rfl

end Layout

/-- A scalar constant spread over the nodes is its value at every node. -/
theorem splat_apply (w : BitVec 32) (r : Fin 100000) :
    broadcastInDim S100000 ![] bcast_S_S100000 (constant (F := Ideal) S_ .f32 w) (ix1 r) = Ideal.ofBits .f32 w := by
  refine (broadcastInDim_apply _ _ _ (ix1 r) ix0 fun a => a.elim0).trans ?_
  rfl

/-! ## The two row reductions -/

theorem reducesRows : S100000x32.Reduces [1] S100000 := by decide

/-- The source index over node `r` with class `k` inserted is `(r, k)`. -/
theorem lift_row (r : Fin 100000) (k : Fin 32) : reducesRows.lift (ix1 r) k = ix2 r k := by
  funext ax; apply Fin.ext
  match ax with
  | ⟨0, _⟩ => rfl
  | ⟨1, _⟩ => rfl

/-- The host's row maximum at node `r`: the fold of `max` from minus infinity over the row's 32 entries. -/
theorem hostRowMax_at (a : FVec Ideal S100000x32 .f32) (r : Fin 100000) :
    Host.reduce FloatOps.maximumf a (constant (F := Ideal) S_ .f32 0xFF800000#32) reducesTo_S100000x32_S100000_d1 h_S_ (ix1 r)
      = Cert.Cheb.rowMax (fun j => a (ix2 r j)) := by
  refine (Host.reduce_eq_fold_single FloatOps.maximumf a _ reducesTo_S100000x32_S100000_d1 reducesRows h_S_ (ix1 r)).trans ?_
  show (Finset.univ : Finset (Fin 32)).fold max (Ideal.ofBits .f32 0xFF800000#32) (a ∘ reducesRows.lift (ix1 r)) = _
  unfold Cert.Cheb.rowMax
  exact congrArg (fun f => (Finset.univ : Finset (Fin 32)).fold max Cert.Cheb.negInf f) (funext fun k => congrArg a (lift_row r k))

/-- The host's row sum at node `r`, from zero: the sum of the row's 32 entries. -/
theorem hostRowSum_at (x : FVec Ideal S100000x32 .f32) (r : Fin 100000) :
    Host.reduceAdd (F := Ideal) x (constant (F := Ideal) S_ .f32 0x00000000#32) reducesTo_S100000x32_S100000_d1 h_S_ (ix1 r)
      = ∑ j : Fin 32, x (ix2 r j) := by
  show Ideal.hostReduceAdd reducesTo_S100000x32_S100000_d1 x (Ideal.ofBits .f32 0x00000000#32) (ix1 r) = _
  rw [Ideal.hostReduceAdd_single reducesTo_S100000x32_S100000_d1 reducesRows, Ideal.ofBits_zero_f32, zero_add]
  show ∑ k : Fin 32, x (reducesRows.lift (ix1 r) k) = _
  exact Finset.sum_congr rfl fun k _ => congrArg x (lift_row r k)

/-- A fold of `max` from minus infinity is at least minus infinity, so taking the maximum with it again changes nothing. -/
theorem max_negInf_rowMax (a : Fin 32 → EReal) :
    max Cert.Cheb.negInf (Cert.Cheb.rowMax a) = Cert.Cheb.rowMax a :=
  max_eq_right ((Finset.le_fold_max _).mpr (Or.inl le_rfl))

/-! ## The row-wise log-softmax and the stage -/

/-- The host's `exp` and `log` of an array, read at an index. -/
theorem hostExp_at {s : Shape} (x : FVec Ideal s .f32) (i : s.Idx) : Host.exp x i = Ideal.exp (x i) := rfl
theorem hostLog_at {s : Shape} (x : FVec Ideal s .f32) (i : s.Idx) : Host.log x i = Ideal.log (x i) := rfl

/-- The row maximum as the reference spreads it over the array: at `(r, j)` it is the maximum of row `r`. -/
theorem spreadMax_at (a : FVec Ideal S100000x32 .f32) (r : Fin 100000) (j : Fin 32) :
    broadcastInDim S100000x32 ![0, 1] bcast_S100000x1_S100000x32_0_1
      (broadcastInDim S100000x1 ![0] bcast_S100000_S100000x1_0
        (maximumf (broadcastInDim S100000 ![] bcast_S_S100000 (constant (F := Ideal) S_ .f32 0xFF800000#32))
          (Host.reduce FloatOps.maximumf a (constant (F := Ideal) S_ .f32 0xFF800000#32) reducesTo_S100000x32_S100000_d1 h_S_)))
      (ix2 r j)
      = Cert.Cheb.rowMax (fun j => a (ix2 r j)) := by
  refine (spread_apply _ r j).trans ?_
  refine (column_apply _ r 0).trans ?_
  rw [maximumf_apply, splat_apply, hostRowMax_at]
  exact max_negInf_rowMax _

/-- The reference's row-wise log-softmax of an array `a`, at `(r, q)`: the log-softmax of row `r` at `q`. -/
theorem logSoftmaxRows_at (a : FVec Ideal S100000x32 .f32) (r : Fin 100000) (q : Fin 32) :
    Stages.logSoftmaxRows (F := Ideal) a (ix2 r q) = Cert.Cheb.rowLogSoftmax (fun j => a (ix2 r j)) q := by
  unfold Stages.logSoftmaxRows Cert.Cheb.rowLogSoftmax
  rw [subf_apply, subf_apply, spreadMax_at a r q]
  refine congrArg (fun z => a (ix2 r q) - Cert.Cheb.rowMax (fun j => a (ix2 r j)) - z) ?_
  refine (spread_apply _ r q).trans ?_
  rw [hostLog_at]
  refine congrArg Ideal.log ?_
  refine (column_apply _ r 0).trans ?_
  refine (hostRowSum_at _ r).trans ?_
  refine Finset.sum_congr rfl fun j _ => ?_
  rw [hostExp_at, subf_apply, spreadMax_at a r j]

/-- THE REFERENCE'S OUTPUT STAGE is the output layer, row by row. -/
theorem stage (h t : FVec Ideal S100000x16 .f32) (w0 w1 : FVec Ideal S16x32 .f32) (b : FVec Ideal S1x32 .f32) :
    Cert.ReferenceIdeal.Stages.denseLogSoftmax (F := Ideal) h t w0 w1 b = Cert.Cheb.logProbs h t w0 w1 b := by
  funext i
  obtain ⟨r, q, rfl⟩ : ∃ (r : Fin 100000) (q : Fin 32), i = ix2 r q := ⟨i 0, i 1, eq_ix2 i⟩
  rw [Cert.Cheb.logProbs_ix2]
  unfold Stages.denseLogSoftmax Cert.Cheb.logProbsAt
  refine (logSoftmaxRows_at _ r q).trans ?_
  refine congrArg (fun f => Cert.Cheb.rowLogSoftmax f q) (funext fun j => ?_)
  unfold Cert.Cheb.rowLogit
  rw [addf_apply, addf_apply, dot_at, dot_at, biasRows_apply]

end Cert.ReferenceIdeal.LogProbs

end
-- ==== Proof.RefRun.Lists.lean ====
/-
  The reference program's 132 host operations cut at the stage boundaries into six consecutive stretches:
  the edge normalisation, the first aggregate, the hidden layer, the edge normalisation once more, the second
  aggregate, and the output layer with its row-wise log-softmax.  Each stretch is read back on its own, from
  arbitrary buffer contents, so that no composed term ever spans more than one stage.
-/
import proofs.«140530_j7876970020889_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–36: the edge list's two rows, the weighted degrees, their inverse square roots, the normalised edge weights (`main_v26`). -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    unary main_v1 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_arg2 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_0 (constant S_ .f32 0x00000000#32),
    unary main_cst_0 main_v7 (broadcastInDim S100000 ![] bcast_S_S100000 : (⟨S_, .f32⟩ : BufTy).Contents (Elt F) → (⟨S100000, .f32⟩ : BufTy).Contents (Elt F)),
    binary main_v6 main_v7 main_v8 (cmpf .ogt : (⟨S100000, .f32⟩ : BufTy).Contents (Elt F) → (⟨S100000, .f32⟩ : BufTy).Contents (Elt F) → (⟨S100000, .i1⟩ : BufTy).Contents (Elt F)),
    unary main_v6 main_v9 (Host.rsqrt : (⟨S100000, .f32⟩ : BufTy).Contents (Elt F) → (⟨S100000, .f32⟩ : BufTy).Contents (Elt F)),
    nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v8) (TRef.of (T := ⟨S100000, .f32⟩) main_v9) (TRef.of (T := ⟨S100000, .f32⟩) main_call0_v1) (TRef.of (T := ⟨S100000, .f32⟩) main_v10) select,
    nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v17 main_arg2 main_v18 (mulf : (⟨S1600000, .f32⟩ : BufTy).Contents (Elt F) → (⟨S1600000, .f32⟩ : BufTy).Contents (Elt F) → (⟨S1600000, .f32⟩ : BufTy).Contents (Elt F)),
    nullary main_c_3 (constantI S_ 32 0#32),
    unary main_c_3 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v10 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)) ]

/-- Operations 37–53: the first layer's normalised aggregate of the feature rows, minus the features (`main_v40`). -/
abbrev opsB : List (HloOp τ sig (Elt F)) :=
  [ unary main_v26 main_v27 (broadcastInDim S1600000x1 ![0] bcast_S1600000_S1600000x1_0 : (⟨S1600000, .f32⟩ : BufTy).Contents (Elt F) → (⟨S1600000x1, .f32⟩ : BufTy).Contents (Elt F)),
    nullary main_c_5 (constantI S_ 32 0#32),
    unary main_c_5 main_v28 (broadcastInDim S1600000 ![] bcast_S_S1600000 : (⟨S_, .i32⟩ : BufTy).Contents (Elt F) → (⟨S1600000, .i32⟩ : BufTy).Contents (Elt F)),
    binary main_v3 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v30 (broadcastInDim S1600000 ![] bcast_S_S1600000 : (⟨S_, .i32⟩ : BufTy).Contents (Elt F) → (⟨S1600000, .i32⟩ : BufTy).Contents (Elt F)),
    binary main_v3 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v3 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_arg0 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v27 main_v35 (broadcastInDim S1600000x128 ![0, 1] bcast_S1600000x1_S1600000x128_0_1 : (⟨S1600000x1, .f32⟩ : BufTy).Contents (Elt F) → (⟨S1600000x128, .f32⟩ : BufTy).Contents (Elt F)),
    binary main_v35 main_v34 main_v36 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v37 (broadcastInDim S100000x128 ![] bcast_S_S100000x128 : (⟨S_, .f32⟩ : BufTy).Contents (Elt F) → (⟨S100000x128, .f32⟩ : BufTy).Contents (Elt F)),
    unary main_v1 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v39 main_arg0 main_v40 (subf : (⟨S100000x128, .f32⟩ : BufTy).Contents (Elt F) → (⟨S100000x128, .f32⟩ : BufTy).Contents (Elt F) → (⟨S100000x128, .f32⟩ : BufTy).Contents (Elt F)) ]

/-- Operations 54–62: the hidden layer, two matrix products, the bias, relu (`main_v47`). -/
abbrev opsC : List (HloOp τ sig (Elt F)) :=
  [ binary main_arg0 main_arg3 main_v41 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    binary main_v40 main_arg4 main_v42 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    binary main_v41 main_v42 main_v43 (addf : (⟨S100000x16, .f32⟩ : BufTy).Contents (Elt F) → (⟨S100000x16, .f32⟩ : BufTy).Contents (Elt F) → (⟨S100000x16, .f32⟩ : BufTy).Contents (Elt F)),
    unary main_arg5 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- Operations 63–94: the degrees and the normalised edge weights once more (`main_v70`). -/
abbrev opsD : List (HloOp τ sig (Elt F)) :=
  [ nullary main_cst_8 (constant S_ .f32 0x00000000#32),
    unary main_cst_8 main_v48 (broadcastInDim S100000 ![] bcast_S_S100000 : (⟨S_, .f32⟩ : BufTy).Contents (Elt F) → (⟨S100000, .f32⟩ : BufTy).Contents (Elt F)),
    unary main_v1 main_v49 (broadcastInDim S1600000x1 ![0] bcast_S1600000_S1600000x1_0 : (⟨S1600000, .i32⟩ : BufTy).Contents (Elt F) → (⟨S1600000x1, .i32⟩ : BufTy).Contents (Elt F)),
    ternary main_v48 main_v49 main_arg2 main_v50 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x00000000#32),
    unary main_cst_9 main_v51 (broadcastInDim S100000 ![] bcast_S_S100000 : (⟨S_, .f32⟩ : BufTy).Contents (Elt F) → (⟨S100000, .f32⟩ : BufTy).Contents (Elt F)),
    binary main_v50 main_v51 main_v52 (cmpf .ogt : (⟨S100000, .f32⟩ : BufTy).Contents (Elt F) → (⟨S100000, .f32⟩ : BufTy).Contents (Elt F) → (⟨S100000, .i1⟩ : BufTy).Contents (Elt F)),
    unary main_v50 main_v53 (Host.rsqrt : (⟨S100000, .f32⟩ : BufTy).Contents (Elt F) → (⟨S100000, .f32⟩ : BufTy).Contents (Elt F)),
    nullary main_cst_10 (constant S_ .f32 0x00000000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v52) (TRef.of (T := ⟨S100000, .f32⟩) main_v53) (TRef.of (T := ⟨S100000, .f32⟩) main_call2_v1) (TRef.of (T := ⟨S100000, .f32⟩) main_v54) select,
    nullary main_c_11 (constantI S_ 32 0#32),
    unary main_c_11 main_v55 (broadcastInDim S1600000 ![] bcast_S_S1600000 : (⟨S_, .i32⟩ : BufTy).Contents (Elt F) → (⟨S1600000, .i32⟩ : BufTy).Contents (Elt F)),
    binary main_v1 main_v55 main_v56 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v57 (broadcastInDim S1600000 ![] bcast_S_S1600000 : (⟨S_, .i32⟩ : BufTy).Contents (Elt F) → (⟨S1600000, .i32⟩ : BufTy).Contents (Elt F)),
    binary main_v1 main_v57 main_v58 (addi : (⟨S1600000, .i32⟩ : BufTy).Contents (Elt F) → (⟨S1600000, .i32⟩ : BufTy).Contents (Elt F) → (⟨S1600000, .i32⟩ : BufTy).Contents (Elt F)),
    ternary main_v56 main_v58 main_v1 main_v59 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v59 main_v60 (broadcastInDim S1600000x1 ![0] bcast_S1600000_S1600000x1_0 : (⟨S1600000, .i32⟩ : BufTy).Contents (Elt F) → (⟨S1600000x1, .i32⟩ : BufTy).Contents (Elt F)),
    binary main_v54 main_v60 main_v61 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v61 main_arg2 main_v62 (mulf : (⟨S1600000, .f32⟩ : BufTy).Contents (Elt F) → (⟨S1600000, .f32⟩ : BufTy).Contents (Elt F) → (⟨S1600000, .f32⟩ : BufTy).Contents (Elt F)),
    nullary main_c_13 (constantI S_ 32 0#32),
    unary main_c_13 main_v63 (broadcastInDim S1600000 ![] bcast_S_S1600000 : (⟨S_, .i32⟩ : BufTy).Contents (Elt F) → (⟨S1600000, .i32⟩ : BufTy).Contents (Elt F)),
    binary main_v3 main_v63 main_v64 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v65 (broadcastInDim S1600000 ![] bcast_S_S1600000 : (⟨S_, .i32⟩ : BufTy).Contents (Elt F) → (⟨S1600000, .i32⟩ : BufTy).Contents (Elt F)),
    binary main_v3 main_v65 main_v66 (addi : (⟨S1600000, .i32⟩ : BufTy).Contents (Elt F) → (⟨S1600000, .i32⟩ : BufTy).Contents (Elt F) → (⟨S1600000, .i32⟩ : BufTy).Contents (Elt F)),
    ternary main_v64 main_v66 main_v3 main_v67 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v67 main_v68 (broadcastInDim S1600000x1 ![0] bcast_S1600000_S1600000x1_0 : (⟨S1600000, .i32⟩ : BufTy).Contents (Elt F) → (⟨S1600000x1, .i32⟩ : BufTy).Contents (Elt F)),
    binary main_v54 main_v68 main_v69 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v62 main_v69 main_v70 (mulf : (⟨S1600000, .f32⟩ : BufTy).Contents (Elt F) → (⟨S1600000, .f32⟩ : BufTy).Contents (Elt F) → (⟨S1600000, .f32⟩ : BufTy).Contents (Elt F)) ]

/-- Operations 95–111: the second layer's normalised aggregate of the hidden rows, minus the hidden rows (`main_v84`). -/
abbrev opsE : List (HloOp τ sig (Elt F)) :=
  [ unary main_v70 main_v71 (broadcastInDim S1600000x1 ![0] bcast_S1600000_S1600000x1_0 : (⟨S1600000, .f32⟩ : BufTy).Contents (Elt F) → (⟨S1600000x1, .f32⟩ : BufTy).Contents (Elt F)),
    nullary main_c_15 (constantI S_ 32 0#32),
    unary main_c_15 main_v72 (broadcastInDim S1600000 ![] bcast_S_S1600000 : (⟨S_, .i32⟩ : BufTy).Contents (Elt F) → (⟨S1600000, .i32⟩ : BufTy).Contents (Elt F)),
    binary main_v3 main_v72 main_v73 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v74 (broadcastInDim S1600000 ![] bcast_S_S1600000 : (⟨S_, .i32⟩ : BufTy).Contents (Elt F) → (⟨S1600000, .i32⟩ : BufTy).Contents (Elt F)),
    binary main_v3 main_v74 main_v75 (addi : (⟨S1600000, .i32⟩ : BufTy).Contents (Elt F) → (⟨S1600000, .i32⟩ : BufTy).Contents (Elt F) → (⟨S1600000, .i32⟩ : BufTy).Contents (Elt F)),
    ternary main_v73 main_v75 main_v3 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v76 main_v77 (broadcastInDim S1600000x1 ![0] bcast_S1600000_S1600000x1_0 : (⟨S1600000, .i32⟩ : BufTy).Contents (Elt F) → (⟨S1600000x1, .i32⟩ : BufTy).Contents (Elt F)),
    binary main_v47 main_v77 main_v78 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    unary main_v71 main_v79 (broadcastInDim S1600000x16 ![0, 1] bcast_S1600000x1_S1600000x16_0_1 : (⟨S1600000x1, .f32⟩ : BufTy).Contents (Elt F) → (⟨S1600000x16, .f32⟩ : BufTy).Contents (Elt F)),
    binary main_v79 main_v78 main_v80 (mulf : (⟨S1600000x16, .f32⟩ : BufTy).Contents (Elt F) → (⟨S1600000x16, .f32⟩ : BufTy).Contents (Elt F) → (⟨S1600000x16, .f32⟩ : BufTy).Contents (Elt F)),
    nullary main_cst_17 (constant S_ .f32 0x00000000#32),
    unary main_cst_17 main_v81 (broadcastInDim S100000x16 ![] bcast_S_S100000x16 : (⟨S_, .f32⟩ : BufTy).Contents (Elt F) → (⟨S100000x16, .f32⟩ : BufTy).Contents (Elt F)),
    unary main_v1 main_v82 (broadcastInDim S1600000x1 ![0] bcast_S1600000_S1600000x1_0 : (⟨S1600000, .i32⟩ : BufTy).Contents (Elt F) → (⟨S1600000x1, .i32⟩ : BufTy).Contents (Elt F)),
    ternary main_v81 main_v82 main_v80 main_v83 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    binary main_v83 main_v47 main_v84 (subf : (⟨S100000x16, .f32⟩ : BufTy).Contents (Elt F) → (⟨S100000x16, .f32⟩ : BufTy).Contents (Elt F) → (⟨S100000x16, .f32⟩ : BufTy).Contents (Elt F)) ]

/-- Operations 112–132: the output layer, two matrix products, the bias, the row-wise log-softmax (`main_v91`). -/
abbrev opsG : List (HloOp τ sig (Elt F)) :=
  [ binary main_v47 main_arg6 main_v85 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v84 main_arg7 main_v86 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v85 main_v86 main_v87 (addf : (⟨S100000x32, .f32⟩ : BufTy).Contents (Elt F) → (⟨S100000x32, .f32⟩ : BufTy).Contents (Elt F) → (⟨S100000x32, .f32⟩ : BufTy).Contents (Elt F)),
    unary main_arg8 main_v88 (broadcastInDim S1x32 ![1] bcast_S32_S1x32_1 : (⟨S32, .f32⟩ : BufTy).Contents (Elt F) → (⟨S1x32, .f32⟩ : BufTy).Contents (Elt F)),
    unary main_v88 main_v89 (broadcastInDim S100000x32 ![0, 1] bcast_S1x32_S100000x32_0_1 : (⟨S1x32, .f32⟩ : BufTy).Contents (Elt F) → (⟨S100000x32, .f32⟩ : BufTy).Contents (Elt F)),
    binary main_v87 main_v89 main_v90 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call3_cst) (constant S_ .f32 0xFF800000#32),
    TRef.binary (TRef.of (T := ⟨S100000x32, .f32⟩) main_v90) (TRef.of (T := ⟨S_, .f32⟩) main_call3_cst) (TRef.of (T := ⟨S100000, .f32⟩) main_call3_v0) (fun x v => Host.reduce FloatOps.maximumf x v reducesTo_S100000x32_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x32, .f32⟩) main_call3_v4) (broadcastInDim S100000x32 ![0, 1] bcast_S100000x1_S100000x32_0_1),
    TRef.binary (TRef.of (T := ⟨S100000x32, .f32⟩) main_v90) (TRef.of (T := ⟨S100000x32, .f32⟩) main_call3_v4) (TRef.of (T := ⟨S100000x32, .f32⟩) main_call3_v5) subf,
    TRef.unary (TRef.of (T := ⟨S100000x32, .f32⟩) main_call3_v5) (TRef.of (T := ⟨S100000x32, .f32⟩) main_call3_v6) Host.exp,
    TRef.nullary (TRef.of (T := ⟨S_, .f32⟩) main_call3_cst_1) (constant S_ .f32 0x00000000#32),
    TRef.binary (TRef.of (T := ⟨S100000x32, .f32⟩) main_call3_v6) (TRef.of (T := ⟨S_, .f32⟩) main_call3_cst_1) (TRef.of (T := ⟨S100000, .f32⟩) main_call3_v7) (fun x v => Host.reduceAdd x v reducesTo_S100000x32_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x32, .f32⟩) main_call3_v10) (broadcastInDim S100000x32 ![0, 1] bcast_S100000x1_S100000x32_0_1),
    TRef.binary (TRef.of (T := ⟨S100000x32, .f32⟩) main_call3_v5) (TRef.of (T := ⟨S100000x32, .f32⟩) main_call3_v10) (TRef.of (T := ⟨S100000x32, .f32⟩) main_v91) subf ]

/-- The contents after two stretches run one after the other: the second's fold over the first's. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih (op.result W)

end Cert.ReferenceIdeal.RefRun

end
-- ==== Proof.RefRun.StageA.lean ====
/-
  The first stretch read back from arbitrary buffer contents: it leaves the two rows of the edge list, and the
  edge weights normalised by the inverse square roots of the weighted degrees of both endpoints; it writes no
  argument.
-/
import proofs.«140530_j7876970020889_1_alg».proof.Proof.RefRun.Lists
import proofs.«140530_j7876970020889_1_alg».proof.Proof.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The normalised edge weights, as a function of the edge list and the edge weights. -/
theorem stageA_v26 (W : Valuation τ sig (Elt F)) :
    after opsA W (Proc.devRef .tc main_v26) = Stages.edgeNorm (F := F) (W (Proc.devRef .tc main_arg1)) (W (Proc.devRef .tc main_arg2)) := by
  after_results_simp
  rfl

/-- The edges' target nodes. -/
theorem stageA_v1 (W : Valuation τ sig (Elt F)) :
    after opsA W (Proc.devRef .tc main_v1) = Stages.rowIdx (F := F) (W (Proc.devRef .tc main_arg1)) := by
  after_results_simp
  rfl

/-- The edges' source nodes. -/
theorem stageA_v3 (W : Valuation τ sig (Elt F)) :
    after opsA W (Proc.devRef .tc main_v3) = Stages.colIdx (F := F) (W (Proc.devRef .tc main_arg1)) := by
  after_results_simp
  rfl

theorem stageA_arg0 (W : Valuation τ sig (Elt F)) :
    after opsA W (Proc.devRef .tc main_arg0) = W (Proc.devRef .tc main_arg0) := by
  after_results_simp

theorem stageA_arg1 (W : Valuation τ sig (Elt F)) :
    after opsA W (Proc.devRef .tc main_arg1) = W (Proc.devRef .tc main_arg1) := by
  after_results_simp

theorem stageA_arg2 (W : Valuation τ sig (Elt F)) :
    after opsA W (Proc.devRef .tc main_arg2) = W (Proc.devRef .tc main_arg2) := by
  after_results_simp

theorem stageA_arg3 (W : Valuation τ sig (Elt F)) :
    after opsA W (Proc.devRef .tc main_arg3) = W (Proc.devRef .tc main_arg3) := by
  after_results_simp

theorem stageA_arg4 (W : Valuation τ sig (Elt F)) :
    after opsA W (Proc.devRef .tc main_arg4) = W (Proc.devRef .tc main_arg4) := by
  after_results_simp

theorem stageA_arg5 (W : Valuation τ sig (Elt F)) :
    after opsA W (Proc.devRef .tc main_arg5) = W (Proc.devRef .tc main_arg5) := by
  after_results_simp

theorem stageA_arg6 (W : Valuation τ sig (Elt F)) :
    after opsA W (Proc.devRef .tc main_arg6) = W (Proc.devRef .tc main_arg6) := by
  after_results_simp

theorem stageA_arg7 (W : Valuation τ sig (Elt F)) :
    after opsA W (Proc.devRef .tc main_arg7) = W (Proc.devRef .tc main_arg7) := by
  after_results_simp

theorem stageA_arg8 (W : Valuation τ sig (Elt F)) :
    after opsA W (Proc.devRef .tc main_arg8) = W (Proc.devRef .tc main_arg8) := by
  after_results_simp

end Cert.ReferenceIdeal.RefRun

end
-- ==== Proof.RefRun.StageB.lean ====
/-
  The second stretch: from the normalised edge weights and the two rows of the edge list it leaves the first
  layer's neighbourhood term, the weighted sum of the source rows of the features over each node's incoming
  edges, minus the features; it writes no argument and keeps the two rows.
-/
import proofs.«140530_j7876970020889_1_alg».proof.Proof.RefRun.Lists
import proofs.«140530_j7876970020889_1_alg».proof.Proof.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first layer's neighbourhood term, from the normalised weights and the rows of an edge list `e`. -/
theorem stageB_v40 (W : Valuation τ sig (Elt F)) (e : (⟨S2x1600000, .i32⟩ : BufTy).Contents (Elt F))
    (h1 : W (Proc.devRef .tc main_v1) = Stages.rowIdx e) (h3 : W (Proc.devRef .tc main_v3) = Stages.colIdx e) :
    after opsB W (Proc.devRef .tc main_v40) = Stages.aggr128 (F := F) (W (Proc.devRef .tc main_v26)) e (W (Proc.devRef .tc main_arg0)) := by
  after_results_simp
  rw [h1, h3]
  rfl

theorem stageB_arg0 (W : Valuation τ sig (Elt F)) :
    after opsB W (Proc.devRef .tc main_arg0) = W (Proc.devRef .tc main_arg0) := by
  after_results_simp

theorem stageB_arg1 (W : Valuation τ sig (Elt F)) :
    after opsB W (Proc.devRef .tc main_arg1) = W (Proc.devRef .tc main_arg1) := by
  after_results_simp

theorem stageB_arg2 (W : Valuation τ sig (Elt F)) :
    after opsB W (Proc.devRef .tc main_arg2) = W (Proc.devRef .tc main_arg2) := by
  after_results_simp

theorem stageB_arg3 (W : Valuation τ sig (Elt F)) :
    after opsB W (Proc.devRef .tc main_arg3) = W (Proc.devRef .tc main_arg3) := by
  after_results_simp

theorem stageB_arg4 (W : Valuation τ sig (Elt F)) :
    after opsB W (Proc.devRef .tc main_arg4) = W (Proc.devRef .tc main_arg4) := by
  after_results_simp

theorem stageB_arg5 (W : Valuation τ sig (Elt F)) :
    after opsB W (Proc.devRef .tc main_arg5) = W (Proc.devRef .tc main_arg5) := by
  after_results_simp

theorem stageB_arg6 (W : Valuation τ sig (Elt F)) :
    after opsB W (Proc.devRef .tc main_arg6) = W (Proc.devRef .tc main_arg6) := by
  after_results_simp

theorem stageB_arg7 (W : Valuation τ sig (Elt F)) :
    after opsB W (Proc.devRef .tc main_arg7) = W (Proc.devRef .tc main_arg7) := by
  after_results_simp

theorem stageB_arg8 (W : Valuation τ sig (Elt F)) :
    after opsB W (Proc.devRef .tc main_arg8) = W (Proc.devRef .tc main_arg8) := by
  after_results_simp

theorem stageB_v1 (W : Valuation τ sig (Elt F)) :
    after opsB W (Proc.devRef .tc main_v1) = W (Proc.devRef .tc main_v1) := by
  after_results_simp

theorem stageB_v3 (W : Valuation τ sig (Elt F)) :
    after opsB W (Proc.devRef .tc main_v3) = W (Proc.devRef .tc main_v3) := by
  after_results_simp

end Cert.ReferenceIdeal.RefRun

end
-- ==== Proof.RefRun.StageC.lean ====
/-
  The third stretch: the hidden layer, relu of the two matrix products plus the bias row; it writes no
  argument and keeps the two rows of the edge list.
-/
import proofs.«140530_j7876970020889_1_alg».proof.Proof.RefRun.Lists
import proofs.«140530_j7876970020889_1_alg».proof.Proof.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The hidden layer, from the features, their neighbourhood term, the two weight tables and the bias. -/
theorem stageC_v47 (W : Valuation τ sig (Elt F)) :
    after opsC W (Proc.devRef .tc main_v47)
      = Stages.denseRelu (F := F) (W (Proc.devRef .tc main_arg0)) (W (Proc.devRef .tc main_v40)) (W (Proc.devRef .tc main_arg3))
          (W (Proc.devRef .tc main_arg4)) (Stages.biasRow16 (W (Proc.devRef .tc main_arg5))) := by
  after_results_simp
  rfl

theorem stageC_arg0 (W : Valuation τ sig (Elt F)) :
    after opsC W (Proc.devRef .tc main_arg0) = W (Proc.devRef .tc main_arg0) := by
  after_results_simp

theorem stageC_arg1 (W : Valuation τ sig (Elt F)) :
    after opsC W (Proc.devRef .tc main_arg1) = W (Proc.devRef .tc main_arg1) := by
  after_results_simp

theorem stageC_arg2 (W : Valuation τ sig (Elt F)) :
    after opsC W (Proc.devRef .tc main_arg2) = W (Proc.devRef .tc main_arg2) := by
  after_results_simp

theorem stageC_arg3 (W : Valuation τ sig (Elt F)) :
    after opsC W (Proc.devRef .tc main_arg3) = W (Proc.devRef .tc main_arg3) := by
  after_results_simp

theorem stageC_arg4 (W : Valuation τ sig (Elt F)) :
    after opsC W (Proc.devRef .tc main_arg4) = W (Proc.devRef .tc main_arg4) := by
  after_results_simp

theorem stageC_arg5 (W : Valuation τ sig (Elt F)) :
    after opsC W (Proc.devRef .tc main_arg5) = W (Proc.devRef .tc main_arg5) := by
  after_results_simp

theorem stageC_arg6 (W : Valuation τ sig (Elt F)) :
    after opsC W (Proc.devRef .tc main_arg6) = W (Proc.devRef .tc main_arg6) := by
  after_results_simp

theorem stageC_arg7 (W : Valuation τ sig (Elt F)) :
    after opsC W (Proc.devRef .tc main_arg7) = W (Proc.devRef .tc main_arg7) := by
  after_results_simp

theorem stageC_arg8 (W : Valuation τ sig (Elt F)) :
    after opsC W (Proc.devRef .tc main_arg8) = W (Proc.devRef .tc main_arg8) := by
  after_results_simp

theorem stageC_v1 (W : Valuation τ sig (Elt F)) :
    after opsC W (Proc.devRef .tc main_v1) = W (Proc.devRef .tc main_v1) := by
  after_results_simp

theorem stageC_v3 (W : Valuation τ sig (Elt F)) :
    after opsC W (Proc.devRef .tc main_v3) = W (Proc.devRef .tc main_v3) := by
  after_results_simp

end Cert.ReferenceIdeal.RefRun

end
-- ==== Proof.RefRun.StageD.lean ====
/-
  The fourth stretch computes the normalised edge weights a second time, from the same edge weights and the
  two rows the first stretch left; it writes no argument and keeps those rows and the hidden layer.
-/
import proofs.«140530_j7876970020889_1_alg».proof.Proof.RefRun.Lists
import proofs.«140530_j7876970020889_1_alg».proof.Proof.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The normalised edge weights again, from the edge weights and the rows of an edge list `e`. -/
theorem stageD_v70 (W : Valuation τ sig (Elt F)) (e : (⟨S2x1600000, .i32⟩ : BufTy).Contents (Elt F))
    (h1 : W (Proc.devRef .tc main_v1) = Stages.rowIdx e) (h3 : W (Proc.devRef .tc main_v3) = Stages.colIdx e) :
    after opsD W (Proc.devRef .tc main_v70) = Stages.edgeNorm (F := F) e (W (Proc.devRef .tc main_arg2)) := by
  after_results_simp
  rw [h1, h3]
  rfl

theorem stageD_arg0 (W : Valuation τ sig (Elt F)) :
    after opsD W (Proc.devRef .tc main_arg0) = W (Proc.devRef .tc main_arg0) := by
  after_results_simp

theorem stageD_arg1 (W : Valuation τ sig (Elt F)) :
    after opsD W (Proc.devRef .tc main_arg1) = W (Proc.devRef .tc main_arg1) := by
  after_results_simp

theorem stageD_arg2 (W : Valuation τ sig (Elt F)) :
    after opsD W (Proc.devRef .tc main_arg2) = W (Proc.devRef .tc main_arg2) := by
  after_results_simp

theorem stageD_arg3 (W : Valuation τ sig (Elt F)) :
    after opsD W (Proc.devRef .tc main_arg3) = W (Proc.devRef .tc main_arg3) := by
  after_results_simp

theorem stageD_arg4 (W : Valuation τ sig (Elt F)) :
    after opsD W (Proc.devRef .tc main_arg4) = W (Proc.devRef .tc main_arg4) := by
  after_results_simp

theorem stageD_arg5 (W : Valuation τ sig (Elt F)) :
    after opsD W (Proc.devRef .tc main_arg5) = W (Proc.devRef .tc main_arg5) := by
  after_results_simp

theorem stageD_arg6 (W : Valuation τ sig (Elt F)) :
    after opsD W (Proc.devRef .tc main_arg6) = W (Proc.devRef .tc main_arg6) := by
  after_results_simp

theorem stageD_arg7 (W : Valuation τ sig (Elt F)) :
    after opsD W (Proc.devRef .tc main_arg7) = W (Proc.devRef .tc main_arg7) := by
  after_results_simp

theorem stageD_arg8 (W : Valuation τ sig (Elt F)) :
    after opsD W (Proc.devRef .tc main_arg8) = W (Proc.devRef .tc main_arg8) := by
  after_results_simp

theorem stageD_v1 (W : Valuation τ sig (Elt F)) :
    after opsD W (Proc.devRef .tc main_v1) = W (Proc.devRef .tc main_v1) := by
  after_results_simp

theorem stageD_v3 (W : Valuation τ sig (Elt F)) :
    after opsD W (Proc.devRef .tc main_v3) = W (Proc.devRef .tc main_v3) := by
  after_results_simp

theorem stageD_v47 (W : Valuation τ sig (Elt F)) :
    after opsD W (Proc.devRef .tc main_v47) = W (Proc.devRef .tc main_v47) := by
  after_results_simp

end Cert.ReferenceIdeal.RefRun

end
-- ==== Proof.RefRun.StageE.lean ====
/-
  The fifth stretch: the second layer's neighbourhood term, the same weighted sum over the hidden rows, minus
  the hidden rows; it writes no argument and keeps the hidden layer.
-/
import proofs.«140530_j7876970020889_1_alg».proof.Proof.RefRun.Lists
import proofs.«140530_j7876970020889_1_alg».proof.Proof.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The second layer's neighbourhood term, from the normalised weights, the rows of an edge list `e` and the hidden rows. -/
theorem stageE_v84 (W : Valuation τ sig (Elt F)) (e : (⟨S2x1600000, .i32⟩ : BufTy).Contents (Elt F))
    (h1 : W (Proc.devRef .tc main_v1) = Stages.rowIdx e) (h3 : W (Proc.devRef .tc main_v3) = Stages.colIdx e) :
    after opsE W (Proc.devRef .tc main_v84) = Stages.aggr16 (F := F) (W (Proc.devRef .tc main_v70)) e (W (Proc.devRef .tc main_v47)) := by
  after_results_simp
  rw [h1, h3]
  rfl

theorem stageE_arg0 (W : Valuation τ sig (Elt F)) :
    after opsE W (Proc.devRef .tc main_arg0) = W (Proc.devRef .tc main_arg0) := by
  after_results_simp

theorem stageE_arg1 (W : Valuation τ sig (Elt F)) :
    after opsE W (Proc.devRef .tc main_arg1) = W (Proc.devRef .tc main_arg1) := by
  after_results_simp

theorem stageE_arg2 (W : Valuation τ sig (Elt F)) :
    after opsE W (Proc.devRef .tc main_arg2) = W (Proc.devRef .tc main_arg2) := by
  after_results_simp

theorem stageE_arg3 (W : Valuation τ sig (Elt F)) :
    after opsE W (Proc.devRef .tc main_arg3) = W (Proc.devRef .tc main_arg3) := by
  after_results_simp

theorem stageE_arg4 (W : Valuation τ sig (Elt F)) :
    after opsE W (Proc.devRef .tc main_arg4) = W (Proc.devRef .tc main_arg4) := by
  after_results_simp

theorem stageE_arg5 (W : Valuation τ sig (Elt F)) :
    after opsE W (Proc.devRef .tc main_arg5) = W (Proc.devRef .tc main_arg5) := by
  after_results_simp

theorem stageE_arg6 (W : Valuation τ sig (Elt F)) :
    after opsE W (Proc.devRef .tc main_arg6) = W (Proc.devRef .tc main_arg6) := by
  after_results_simp

theorem stageE_arg7 (W : Valuation τ sig (Elt F)) :
    after opsE W (Proc.devRef .tc main_arg7) = W (Proc.devRef .tc main_arg7) := by
  after_results_simp

theorem stageE_arg8 (W : Valuation τ sig (Elt F)) :
    after opsE W (Proc.devRef .tc main_arg8) = W (Proc.devRef .tc main_arg8) := by
  after_results_simp

theorem stageE_v47 (W : Valuation τ sig (Elt F)) :
    after opsE W (Proc.devRef .tc main_v47) = W (Proc.devRef .tc main_v47) := by
  after_results_simp

end Cert.ReferenceIdeal.RefRun

end
-- ==== Proof.RefRun.StageG.lean ====
/-
  The last stretch: the output layer, the two matrix products plus the bias row, then the row-wise
  log-softmax; it writes no argument.
-/
import proofs.«140530_j7876970020889_1_alg».proof.Proof.RefRun.Lists
import proofs.«140530_j7876970020889_1_alg».proof.Proof.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The last stretch with every typed reference read as the buffer it names. -/
abbrev opsG' : List (HloOp τ sig (Elt F)) :=
  [ binary main_v47 main_arg6 main_v85 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v84 main_arg7 main_v86 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v85 main_v86 main_v87 (addf : (⟨S100000x32, .f32⟩ : BufTy).Contents (Elt F) → (⟨S100000x32, .f32⟩ : BufTy).Contents (Elt F) → (⟨S100000x32, .f32⟩ : BufTy).Contents (Elt F)),
    unary main_arg8 main_v88 (broadcastInDim S1x32 ![1] bcast_S32_S1x32_1 : (⟨S32, .f32⟩ : BufTy).Contents (Elt F) → (⟨S1x32, .f32⟩ : BufTy).Contents (Elt F)),
    unary main_v88 main_v89 (broadcastInDim S100000x32 ![0, 1] bcast_S1x32_S100000x32_0_1 : (⟨S1x32, .f32⟩ : BufTy).Contents (Elt F) → (⟨S100000x32, .f32⟩ : BufTy).Contents (Elt F)),
    binary main_v87 main_v89 main_v90 (addf : (⟨S100000x32, .f32⟩ : BufTy).Contents (Elt F) → (⟨S100000x32, .f32⟩ : BufTy).Contents (Elt F) → (⟨S100000x32, .f32⟩ : BufTy).Contents (Elt F)),
    nullary main_call3_cst ((constant S_ .f32 0xFF800000#32) : (⟨S_, .f32⟩ : BufTy).Contents (Elt F)),
    binary main_v90 main_call3_cst main_call3_v0 (((fun x v => Host.reduce FloatOps.maximumf x v reducesTo_S100000x32_S100000_d1 h_S_)) : (⟨S100000x32, .f32⟩ : BufTy).Contents (Elt F) → (⟨S_, .f32⟩ : BufTy).Contents (Elt F) → (⟨S100000, .f32⟩ : BufTy).Contents (Elt F)),
    nullary main_call3_cst_0 ((constant S_ .f32 0xFF800000#32) : (⟨S_, .f32⟩ : BufTy).Contents (Elt F)),
    unary main_call3_cst_0 main_call3_v1 (((broadcastInDim S100000 ![] bcast_S_S100000)) : (⟨S_, .f32⟩ : BufTy).Contents (Elt F) → (⟨S100000, .f32⟩ : BufTy).Contents (Elt F)),
    binary main_call3_v1 main_call3_v0 main_call3_v2 ((maximumf) : (⟨S100000, .f32⟩ : BufTy).Contents (Elt F) → (⟨S100000, .f32⟩ : BufTy).Contents (Elt F) → (⟨S100000, .f32⟩ : BufTy).Contents (Elt F)),
    unary main_call3_v2 main_call3_v3 (((broadcastInDim S100000x1 ![0] bcast_S100000_S100000x1_0)) : (⟨S100000, .f32⟩ : BufTy).Contents (Elt F) → (⟨S100000x1, .f32⟩ : BufTy).Contents (Elt F)),
    unary main_call3_v3 main_call3_v4 (((broadcastInDim S100000x32 ![0, 1] bcast_S100000x1_S100000x32_0_1)) : (⟨S100000x1, .f32⟩ : BufTy).Contents (Elt F) → (⟨S100000x32, .f32⟩ : BufTy).Contents (Elt F)),
    binary main_v90 main_call3_v4 main_call3_v5 ((subf) : (⟨S100000x32, .f32⟩ : BufTy).Contents (Elt F) → (⟨S100000x32, .f32⟩ : BufTy).Contents (Elt F) → (⟨S100000x32, .f32⟩ : BufTy).Contents (Elt F)),
    unary main_call3_v5 main_call3_v6 ((Host.exp) : (⟨S100000x32, .f32⟩ : BufTy).Contents (Elt F) → (⟨S100000x32, .f32⟩ : BufTy).Contents (Elt F)),
    nullary main_call3_cst_1 ((constant S_ .f32 0x00000000#32) : (⟨S_, .f32⟩ : BufTy).Contents (Elt F)),
    binary main_call3_v6 main_call3_cst_1 main_call3_v7 (((fun x v => Host.reduceAdd x v reducesTo_S100000x32_S100000_d1 h_S_)) : (⟨S100000x32, .f32⟩ : BufTy).Contents (Elt F) → (⟨S_, .f32⟩ : BufTy).Contents (Elt F) → (⟨S100000, .f32⟩ : BufTy).Contents (Elt F)),
    unary main_call3_v7 main_call3_v8 (((broadcastInDim S100000x1 ![0] bcast_S100000_S100000x1_0)) : (⟨S100000, .f32⟩ : BufTy).Contents (Elt F) → (⟨S100000x1, .f32⟩ : BufTy).Contents (Elt F)),
    unary main_call3_v8 main_call3_v9 ((Host.log) : (⟨S100000x1, .f32⟩ : BufTy).Contents (Elt F) → (⟨S100000x1, .f32⟩ : BufTy).Contents (Elt F)),
    unary main_call3_v9 main_call3_v10 (((broadcastInDim S100000x32 ![0, 1] bcast_S100000x1_S100000x32_0_1)) : (⟨S100000x1, .f32⟩ : BufTy).Contents (Elt F) → (⟨S100000x32, .f32⟩ : BufTy).Contents (Elt F)),
    binary main_call3_v5 main_call3_v10 main_v91 ((subf) : (⟨S100000x32, .f32⟩ : BufTy).Contents (Elt F) → (⟨S100000x32, .f32⟩ : BufTy).Contents (Elt F) → (⟨S100000x32, .f32⟩ : BufTy).Contents (Elt F)) ]

-- the row reduction is kept folded while the two spellings are compared: the comparison never looks inside it
attribute [local irreducible] Host.reduce in
/-- The two spellings are the same operations: at each typed reference the transport is along an equation between
    a buffer's type and itself. -/
theorem opsG_eq : (opsG : List (HloOp τ sig (Elt F))) = opsG' := rfl

/-- The log-probabilities, from the hidden rows, their neighbourhood term, the two weight tables and the bias. -/
theorem stageG_v91 (W : Valuation τ sig (Elt F)) :
    after opsG W (Proc.devRef .tc main_v91)
      = Stages.denseLogSoftmax (F := F) (W (Proc.devRef .tc main_v47)) (W (Proc.devRef .tc main_v84)) (W (Proc.devRef .tc main_arg6))
          (W (Proc.devRef .tc main_arg7)) (Stages.biasRow32 (W (Proc.devRef .tc main_arg8))) := by
  rw [opsG_eq]
  after_results_simp
  rfl

theorem stageG_arg0 (W : Valuation τ sig (Elt F)) :
    after opsG W (Proc.devRef .tc main_arg0) = W (Proc.devRef .tc main_arg0) := by
  after_results_simp

theorem stageG_arg1 (W : Valuation τ sig (Elt F)) :
    after opsG W (Proc.devRef .tc main_arg1) = W (Proc.devRef .tc main_arg1) := by
  after_results_simp

theorem stageG_arg2 (W : Valuation τ sig (Elt F)) :
    after opsG W (Proc.devRef .tc main_arg2) = W (Proc.devRef .tc main_arg2) := by
  after_results_simp

theorem stageG_arg3 (W : Valuation τ sig (Elt F)) :
    after opsG W (Proc.devRef .tc main_arg3) = W (Proc.devRef .tc main_arg3) := by
  after_results_simp

theorem stageG_arg4 (W : Valuation τ sig (Elt F)) :
    after opsG W (Proc.devRef .tc main_arg4) = W (Proc.devRef .tc main_arg4) := by
  after_results_simp

theorem stageG_arg5 (W : Valuation τ sig (Elt F)) :
    after opsG W (Proc.devRef .tc main_arg5) = W (Proc.devRef .tc main_arg5) := by
  after_results_simp

theorem stageG_arg6 (W : Valuation τ sig (Elt F)) :
    after opsG W (Proc.devRef .tc main_arg6) = W (Proc.devRef .tc main_arg6) := by
  after_results_simp

theorem stageG_arg7 (W : Valuation τ sig (Elt F)) :
    after opsG W (Proc.devRef .tc main_arg7) = W (Proc.devRef .tc main_arg7) := by
  after_results_simp

theorem stageG_arg8 (W : Valuation τ sig (Elt F)) :
    after opsG W (Proc.devRef .tc main_arg8) = W (Proc.devRef .tc main_arg8) := by
  after_results_simp

end Cert.ReferenceIdeal.RefRun

end
-- ==== Proof.RefRun.Chain.lean ====
/-
  The six stretches' readings chained, from arbitrary starting contents: the first leaves the two rows of the
  edge list and the normalised weights, the second the first neighbourhood term, the third the hidden layer,
  the fourth the normalised weights again, the fifth the second neighbourhood term, the last the
  log-probabilities — the net of the nine arguments — and no stretch writes an argument.
-/
import proofs.«140530_j7876970020889_1_alg».proof.Proof.Net
import proofs.«140530_j7876970020889_1_alg».proof.Proof.RefRun.StageA
import proofs.«140530_j7876970020889_1_alg».proof.Proof.RefRun.StageB
import proofs.«140530_j7876970020889_1_alg».proof.Proof.RefRun.StageC
import proofs.«140530_j7876970020889_1_alg».proof.Proof.RefRun.StageD
import proofs.«140530_j7876970020889_1_alg».proof.Proof.RefRun.StageE
import proofs.«140530_j7876970020889_1_alg».proof.Proof.RefRun.StageG

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem chain_arg0 (W : Valuation τ sig (Elt F)) :
    after opsG (after opsE (after opsD (after opsC (after opsB (after opsA W))))) (Proc.devRef .tc main_arg0) = W (Proc.devRef .tc main_arg0) := by
  rw [stageG_arg0, stageE_arg0, stageD_arg0, stageC_arg0, stageB_arg0, stageA_arg0]
theorem chain_arg1 (W : Valuation τ sig (Elt F)) :
    after opsG (after opsE (after opsD (after opsC (after opsB (after opsA W))))) (Proc.devRef .tc main_arg1) = W (Proc.devRef .tc main_arg1) := by
  rw [stageG_arg1, stageE_arg1, stageD_arg1, stageC_arg1, stageB_arg1, stageA_arg1]
theorem chain_arg2 (W : Valuation τ sig (Elt F)) :
    after opsG (after opsE (after opsD (after opsC (after opsB (after opsA W))))) (Proc.devRef .tc main_arg2) = W (Proc.devRef .tc main_arg2) := by
  rw [stageG_arg2, stageE_arg2, stageD_arg2, stageC_arg2, stageB_arg2, stageA_arg2]
theorem chain_arg3 (W : Valuation τ sig (Elt F)) :
    after opsG (after opsE (after opsD (after opsC (after opsB (after opsA W))))) (Proc.devRef .tc main_arg3) = W (Proc.devRef .tc main_arg3) := by
  rw [stageG_arg3, stageE_arg3, stageD_arg3, stageC_arg3, stageB_arg3, stageA_arg3]
theorem chain_arg4 (W : Valuation τ sig (Elt F)) :
    after opsG (after opsE (after opsD (after opsC (after opsB (after opsA W))))) (Proc.devRef .tc main_arg4) = W (Proc.devRef .tc main_arg4) := by
  rw [stageG_arg4, stageE_arg4, stageD_arg4, stageC_arg4, stageB_arg4, stageA_arg4]
theorem chain_arg5 (W : Valuation τ sig (Elt F)) :
    after opsG (after opsE (after opsD (after opsC (after opsB (after opsA W))))) (Proc.devRef .tc main_arg5) = W (Proc.devRef .tc main_arg5) := by
  rw [stageG_arg5, stageE_arg5, stageD_arg5, stageC_arg5, stageB_arg5, stageA_arg5]
theorem chain_arg6 (W : Valuation τ sig (Elt F)) :
    after opsG (after opsE (after opsD (after opsC (after opsB (after opsA W))))) (Proc.devRef .tc main_arg6) = W (Proc.devRef .tc main_arg6) := by
  rw [stageG_arg6, stageE_arg6, stageD_arg6, stageC_arg6, stageB_arg6, stageA_arg6]
theorem chain_arg7 (W : Valuation τ sig (Elt F)) :
    after opsG (after opsE (after opsD (after opsC (after opsB (after opsA W))))) (Proc.devRef .tc main_arg7) = W (Proc.devRef .tc main_arg7) := by
  rw [stageG_arg7, stageE_arg7, stageD_arg7, stageC_arg7, stageB_arg7, stageA_arg7]
theorem chain_arg8 (W : Valuation τ sig (Elt F)) :
    after opsG (after opsE (after opsD (after opsC (after opsB (after opsA W))))) (Proc.devRef .tc main_arg8) = W (Proc.devRef .tc main_arg8) := by
  rw [stageG_arg8, stageE_arg8, stageD_arg8, stageC_arg8, stageB_arg8, stageA_arg8]

/-- The two rows of the edge list survive the second, third and fourth stretches. -/
theorem rows_B (W : Valuation τ sig (Elt F)) :
    after opsB (after opsA W) (Proc.devRef .tc main_v1) = Stages.rowIdx (F := F) (W (Proc.devRef .tc main_arg1))
      ∧ after opsB (after opsA W) (Proc.devRef .tc main_v3) = Stages.colIdx (F := F) (W (Proc.devRef .tc main_arg1)) :=
  ⟨(stageB_v1 _).trans (stageA_v1 W), (stageB_v3 _).trans (stageA_v3 W)⟩
theorem rows_C (W : Valuation τ sig (Elt F)) :
    after opsC (after opsB (after opsA W)) (Proc.devRef .tc main_v1) = Stages.rowIdx (F := F) (W (Proc.devRef .tc main_arg1))
      ∧ after opsC (after opsB (after opsA W)) (Proc.devRef .tc main_v3) = Stages.colIdx (F := F) (W (Proc.devRef .tc main_arg1)) :=
  ⟨(stageC_v1 _).trans (rows_B W).1, (stageC_v3 _).trans (rows_B W).2⟩
theorem rows_D (W : Valuation τ sig (Elt F)) :
    after opsD (after opsC (after opsB (after opsA W))) (Proc.devRef .tc main_v1) = Stages.rowIdx (F := F) (W (Proc.devRef .tc main_arg1))
      ∧ after opsD (after opsC (after opsB (after opsA W))) (Proc.devRef .tc main_v3) = Stages.colIdx (F := F) (W (Proc.devRef .tc main_arg1)) :=
  ⟨(stageD_v1 _).trans (rows_C W).1, (stageD_v3 _).trans (rows_C W).2⟩

/-- After three stretches: the hidden layer of the net. -/
theorem hidden_C (W : Valuation τ sig (Elt F)) :
    after opsC (after opsB (after opsA W)) (Proc.devRef .tc main_v47)
      = Stages.netHidden (F := F) (W (Proc.devRef .tc main_arg0)) (W (Proc.devRef .tc main_arg1)) (W (Proc.devRef .tc main_arg2)) (W (Proc.devRef .tc main_arg3)) (W (Proc.devRef .tc main_arg4))
          (Stages.biasRow16 (W (Proc.devRef .tc main_arg5))) := by
  rw [stageC_v47, stageB_v40 _ _ (stageA_v1 W) (stageA_v3 W), stageB_arg0, stageB_arg3, stageB_arg4, stageB_arg5,
    stageA_v26, stageA_arg0, stageA_arg3, stageA_arg4, stageA_arg5]
  rfl

/-- It survives the next two stretches. -/
theorem hidden_E (W : Valuation τ sig (Elt F)) :
    after opsE (after opsD (after opsC (after opsB (after opsA W)))) (Proc.devRef .tc main_v47)
      = Stages.netHidden (F := F) (W (Proc.devRef .tc main_arg0)) (W (Proc.devRef .tc main_arg1)) (W (Proc.devRef .tc main_arg2)) (W (Proc.devRef .tc main_arg3)) (W (Proc.devRef .tc main_arg4))
          (Stages.biasRow16 (W (Proc.devRef .tc main_arg5))) :=
  (stageE_v47 _).trans ((stageD_v47 _).trans (hidden_C W))

/-- After five stretches: the second neighbourhood term. -/
theorem aggr_E (W : Valuation τ sig (Elt F)) :
    after opsE (after opsD (after opsC (after opsB (after opsA W)))) (Proc.devRef .tc main_v84)
      = Stages.aggr16 (F := F) (Stages.edgeNorm (W (Proc.devRef .tc main_arg1)) (W (Proc.devRef .tc main_arg2))) (W (Proc.devRef .tc main_arg1))
          (Stages.netHidden (F := F) (W (Proc.devRef .tc main_arg0)) (W (Proc.devRef .tc main_arg1)) (W (Proc.devRef .tc main_arg2)) (W (Proc.devRef .tc main_arg3)) (W (Proc.devRef .tc main_arg4))
          (Stages.biasRow16 (W (Proc.devRef .tc main_arg5)))) := by
  rw [stageE_v84 _ _ (rows_D W).1 (rows_D W).2, stageD_v70 _ _ (rows_C W).1 (rows_C W).2, stageD_v47, hidden_C,
    stageC_arg2, stageB_arg2, stageA_arg2]

/-- After all six: the result buffer holds the net of the nine arguments. -/
theorem chain_v91 (W : Valuation τ sig (Elt F)) :
    after opsG (after opsE (after opsD (after opsC (after opsB (after opsA W))))) (Proc.devRef .tc main_v91)
      = Stages.net (F := F) (W (Proc.devRef .tc main_arg0)) (W (Proc.devRef .tc main_arg1)) (W (Proc.devRef .tc main_arg2)) (W (Proc.devRef .tc main_arg3)) (W (Proc.devRef .tc main_arg4))
          (Stages.biasRow16 (W (Proc.devRef .tc main_arg5))) (W (Proc.devRef .tc main_arg6)) (W (Proc.devRef .tc main_arg7)) (Stages.biasRow32 (W (Proc.devRef .tc main_arg8))) := by
  rw [stageG_v91, hidden_E, aggr_E,
    stageE_arg6, stageD_arg6, stageC_arg6, stageB_arg6, stageA_arg6,
    stageE_arg7, stageD_arg7, stageC_arg7, stageB_arg7, stageA_arg7,
    stageE_arg8, stageD_arg8, stageC_arg8, stageB_arg8, stageA_arg8]
  rfl

end Cert.ReferenceIdeal.RefRun

end
-- ==== Proof.RefRun.lean ====
/-
  The reference program's run, read back as the net of the stages.

  The program's 132 operations are the six stretches in order, so the contents they leave are the six
  stretches' folds composed; the chained readings then give the result buffer as the net of the nine
  arguments' launch contents, and every argument as it was.
-/
import proofs.«140530_j7876970020889_1_alg».proof.Proof.RefOps
import proofs.«140530_j7876970020889_1_alg».proof.Proof.Net
import proofs.«140530_j7876970020889_1_alg».proof.Proof.RefRun.Chain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations are the six stretches, in order. -/
theorem ops_split : (RefOps.ops : List (HloOp τ sig (Elt F))) = opsA ++ (opsB ++ (opsC ++ (opsD ++ (opsE ++ opsG)))) := rfl

/-- The contents after all the operations: the six folds composed. -/
theorem after_ops (W : Valuation τ sig (Elt F)) :
    after RefOps.ops W = after opsG (after opsE (after opsD (after opsC (after opsB (after opsA W))))) := by
  rw [ops_split, after_append, after_append, after_append, after_append, after_append]

/-- On every device, for any float values, from any memory with zero counters: every weakly fair execution of
    the reference program terminates with the result buffer at the net of the nine arguments' launch contents
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91)
        = Stages.net (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (Stages.biasRow16 (m ((c.tc : Thread nD τ).loc main_arg5))) (m ((c.tc : Thread nD τ).loc main_arg6))
            (m ((c.tc : Thread nD τ).loc main_arg7)) (Stages.biasRow32 (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v91).trans ((congrFun (after_ops _) _).trans (chain_v91 (launchContents m c))),
      (h c main_arg0).trans ((congrFun (after_ops _) _).trans (chain_arg0 (launchContents m c))),
      (h c main_arg1).trans ((congrFun (after_ops _) _).trans (chain_arg1 (launchContents m c))),
      (h c main_arg2).trans ((congrFun (after_ops _) _).trans (chain_arg2 (launchContents m c))),
      (h c main_arg3).trans ((congrFun (after_ops _) _).trans (chain_arg3 (launchContents m c))),
      (h c main_arg4).trans ((congrFun (after_ops _) _).trans (chain_arg4 (launchContents m c))),
      (h c main_arg5).trans ((congrFun (after_ops _) _).trans (chain_arg5 (launchContents m c))),
      (h c main_arg6).trans ((congrFun (after_ops _) _).trans (chain_arg6 (launchContents m c))),
      (h c main_arg7).trans ((congrFun (after_ops _) _).trans (chain_arg7 (launchContents m c))),
      (h c main_arg8).trans ((congrFun (after_ops _) _).trans (chain_arg8 (launchContents m c)))⟩)
    (RefOps.run_raw m ρ)

end Cert.ReferenceIdeal.RefRun

end
-- ==== Proof.Claims.lean ====
/-
  The five claims.

  The kernel program's frames are the generated ones; the reference's frame is its run with the result
  dropped; the idealization rewrote nothing.  For the value claim, both programs are run from memories
  that agree on the nine arguments.  The kernel program's result buffer ends at the output layer
  (row-wise log-softmax of  h · W0 + t · W1 + b)  of the hidden layer the first region left
  (relu of the same combine of the features and their normalised neighbourhood aggregate); the reference's
  result ends at the same network written with its own dense stages, and each dense stage, read entry by
  entry on the extended reals, is that row function.  The graph stages between them are the same terms on
  both sides.
-/
import proofs.«140530_j7876970020889_1_alg».proof.Defs
import proofs.«140530_j7876970020889_1_alg».proof.Proof.Gen.Kernel
import proofs.«140530_j7876970020889_1_alg».proof.Proof.Gen.Kernel.Frame
import proofs.«140530_j7876970020889_1_alg».proof.Proof.Gen.KernelIdeal
import proofs.«140530_j7876970020889_1_alg».proof.Proof.Gen.KernelIdeal.Frame
import proofs.«140530_j7876970020889_1_alg».proof.Proof.Gen.ReferenceIdeal
import proofs.«140530_j7876970020889_1_alg».proof.Proof.Gen.Pre_finite_inputs
import proofs.«140530_j7876970020889_1_alg».proof.Proof.KernelRun
import proofs.«140530_j7876970020889_1_alg».proof.Proof.KernelChain
import proofs.«140530_j7876970020889_1_alg».proof.Proof.Bridge
import proofs.«140530_j7876970020889_1_alg».proof.Proof.Hidden.Final
import proofs.«140530_j7876970020889_1_alg».proof.Proof.Hidden.Stage
import proofs.«140530_j7876970020889_1_alg».proof.Proof.LogProbs.Final
import proofs.«140530_j7876970020889_1_alg».proof.Proof.LogProbs.Stage
import proofs.«140530_j7876970020889_1_alg».proof.Proof.RefRun

noncomputable section

namespace Cert.Proof.Claims

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- On the extended reals both programs end with the network's log-probabilities: the kernel program's
    result buffer holds the output layer of the hidden layer the first region left; the reference's holds
    the same network in the stages' spelling, which is that function of arguments that agree. -/
theorem algebraic : Cert.algebraic_KernelIdeal_ReferenceIdeal := by
  intro m ρ m' ρ' _ hagree
  refine ⟨fun c => Cert.KernelIdeal.KernelChain.resultK m c, ?_, ?_⟩
  · exact (θ_run Cert.KernelIdeal.defs _ _).mono
      (fun r h c => ⟨(h c).1.trans (Cert.KernelIdeal.KernelChain.result_value m ρ
          Cert.KernelIdeal.Hidden.final Cert.KernelIdeal.LogProbs.final c), (h c).2⟩)
      (Cert.KernelIdeal.KernelRun.run_result (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8⟩ := hagree c
    rw [e0, e1, e2, e3, e4, e5, e6, e7, e8]
    exact Cert.Cheb.Bridge.net_eq Cert.ReferenceIdeal.Hidden.stage Cert.ReferenceIdeal.LogProbs.stage _ _ _ _ _ _ _ _ _ _ _

end Cert.Proof.Claims

end
-- ==== Proof.lean ====
/-
  The certificate's proof: a two-layer Chebyshev graph convolution, its dense combines computed in two
  kernel regions, against the same network in plain array operations.

  Both programs normalise the edge weights by the weighted degrees, aggregate each node's neighbours, and
  apply  relu (x · W0 + t · W1 + b)  and then a row-wise log-softmax of the same combine of the hidden layer.
  The kernel program computes the two combines block by block over ten blocks of 10000 nodes and shares one
  normalisation between the layers; the reference computes them as whole-array products and recomputes the
  normalisation.  On the extended reals the two results are equal entry by entry (Proof/Claims.lean).
-/
import proofs.«140530_j7876970020889_1_alg».proof.Defs
import proofs.«140530_j7876970020889_1_alg».proof.Proof.Gen.Kernel
import proofs.«140530_j7876970020889_1_alg».proof.Proof.Gen.Kernel.Skeleton
import proofs.«140530_j7876970020889_1_alg».proof.Proof.Gen.Kernel.Launch
import proofs.«140530_j7876970020889_1_alg».proof.Proof.Gen.Kernel.Points
import proofs.«140530_j7876970020889_1_alg».proof.Proof.Gen.Kernel.Frame
import proofs.«140530_j7876970020889_1_alg».proof.Proof.Gen.KernelIdeal
import proofs.«140530_j7876970020889_1_alg».proof.Proof.Gen.KernelIdeal.Skeleton
import proofs.«140530_j7876970020889_1_alg».proof.Proof.Gen.KernelIdeal.Launch
import proofs.«140530_j7876970020889_1_alg».proof.Proof.Gen.KernelIdeal.Points
import proofs.«140530_j7876970020889_1_alg».proof.Proof.Gen.KernelIdeal.Frame
import proofs.«140530_j7876970020889_1_alg».proof.Proof.Gen.ReferenceIdeal
import proofs.«140530_j7876970020889_1_alg».proof.Proof.Gen.Pre_finite_inputs
import proofs.«140530_j7876970020889_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_kernel, Cert.Proof.Claims.frame_kernelIdeal, Cert.Proof.Claims.frame_referenceIdeal,
    Cert.Proof.Claims.preserves, Cert.Proof.Claims.algebraic⟩

end Cert.Proof

end
